-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S200000 : Shape := ⟨1, ![200000]⟩
abbrev S1000000 : Shape := ⟨1, ![1000000]⟩
abbrev S500000x128 : Shape := ⟨2, ![500000, 128]⟩
abbrev S200000x128 : Shape := ⟨2, ![200000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg29 : FVec F S128x64 .f32) (main_arg30 : FVec F S64 .f32) (main_arg31 : FVec F S64x1 .f32) (main_arg32 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S128x64 .f32 := Host.absf main_arg29
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg30
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x1 .f32 := Host.absf main_arg31
  let main_cst_44 : FVec F S_ .f32 := constant S_ .f32 0x7F800000#32
  let main_v115 : FVec F S64x1 .f32 := broadcastInDim S64x1 ![] bcast_S_S64x1 main_cst_44
  let main_v116 : IVec S64x1 1 := cmpf .olt main_v114 main_v115
  let main_c_45 : IVec S_ 1 := constantI S_ 1 1#1
  let main_v117 : IVec S_ 1 := (fun x v => Host.reduce IntOp.andi x v reducesTo_S64x1_S_d0_1 h_S_) main_v116 main_c_45
  let main_v118 : IVec S_ 1 := andi main_v113 main_v117
  let main_v119 : FVec F S1 .f32 := Host.absf main_arg32
  fn_part7 (F := F) main_v118 main_v119

def fn_part5 {F : FTy → Type} [FloatOps F] (main_arg26 : FVec F S128x128 .f32) (main_arg27 : FVec F S128x64 .f32) (main_arg28 : FVec F S64 .f32) (main_arg29 : FVec F S128x64 .f32) (main_arg30 : FVec F S64 .f32) (main_arg31 : FVec F S64x1 .f32) (main_arg32 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg26
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x64 .f32 := Host.absf main_arg27
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg28
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg29 main_arg30 main_arg31 main_arg32 main_v98 main_v101 main_c_39

def fn_part4 {F : FTy → Type} [FloatOps F] (main_arg22 : FVec F S128 .f32) (main_arg23 : FVec F S128x128 .f32) (main_arg24 : FVec F S128x128 .f32) (main_arg25 : FVec F S128 .f32) (main_arg26 : FVec F S128x128 .f32) (main_arg27 : FVec F S128x64 .f32) (main_arg28 : FVec F S64 .f32) (main_arg29 : FVec F S128x64 .f32) (main_arg30 : FVec F S64 .f32) (main_arg31 : FVec F S64x1 .f32) (main_arg32 : FVec F S1 .f32) (main_v63 : IVec S_ 1) (main_v67 : IVec S_ 1) : IVec S_ 1 :=
  let main_v68 : IVec S_ 1 := andi main_v63 main_v67
  let main_v69 : FVec F S128 .f32 := Host.absf main_arg22
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg23
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg24
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg25
  let main_cst_32 : FVec F S_ .f32 := constant S_ .f32 0x7F800000#32
  fn_part5 (F := F) main_arg26 main_arg27 main_arg28 main_arg29 main_arg30 main_arg31 main_arg32 main_v83 main_v84 main_cst_32

def fn_part3 {F : FTy → Type} [FloatOps F] (main_arg19 : FVec F S128x64 .f32) (main_arg20 : FVec F S64 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x64 .f32) (main_arg28 : FVec F S64 .f32) (main_arg29 : FVec F S128x64 .f32) (main_arg30 : FVec F S64 .f32) (main_arg31 : FVec F S64x1 .f32) (main_arg32 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x64 .f32 := Host.absf main_arg19
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg20
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x128 .f32 := Host.absf main_arg21
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg22 main_arg23 main_arg24 main_arg25 main_arg26 main_arg27 main_arg28 main_arg29 main_arg30 main_arg31 main_arg32 main_v63 main_v67

def fn_part2 {F : FTy → Type} [FloatOps F] (main_arg15 : FVec F S128x128 .f32) (main_arg16 : FVec F S128x128 .f32) (main_arg17 : FVec F S128 .f32) (main_arg18 : FVec F S128x128 .f32) (main_arg19 : FVec F S128x64 .f32) (main_arg20 : FVec F S64 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x64 .f32) (main_arg28 : FVec F S64 .f32) (main_arg29 : FVec F S128x64 .f32) (main_arg30 : FVec F S64 .f32) (main_arg31 : FVec F S64x1 .f32) (main_arg32 : FVec F S1 .f32) (main_v33 : IVec S_ 1) : IVec S_ 1 :=
  let main_v34 : FVec F S128x128 .f32 := Host.absf main_arg15
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg18
  let main_cst_18 : FVec F S_ .f32 := constant S_ .f32 0x7F800000#32
  let main_v50 : FVec F S128x128 .f32 := broadcastInDim S128x128 ![] bcast_S_S128x128 main_cst_18
  fn_part3 (F := F) main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x64 .f32) (main_arg20 : FVec F S64 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x64 .f32) (main_arg28 : FVec F S64 .f32) (main_arg29 : FVec F S128x64 .f32) (main_arg30 : FVec F S64 .f32) (main_arg31 : FVec F S64x1 .f32) (main_arg32 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg12
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg13
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg14
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : IVec S500000 32) (main_arg1 : IVec S200000 32) (main_arg2 : IVec S200000 32) (main_arg3 : IVec S200000 32) (main_arg4 : IVec S1000000 32) (main_arg5 : IVec S1000000 32) (main_arg6 : IVec S500000 32) (main_arg7 : IVec S500000 32) (main_arg8 : FVec F S500000x128 .f32) (main_arg9 : FVec F S200000x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x64 .f32) (main_arg20 : FVec F S64 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x64 .f32) (main_arg28 : FVec F S64 .f32) (main_arg29 : FVec F S128x64 .f32) (main_arg30 : FVec F S64 .f32) (main_arg31 : FVec F S64x1 .f32) (main_arg32 : FVec F S1 .f32) : IVec S_ 1 :=
  let main_v0 : FVec F S500000x128 .f32 := Host.absf main_arg8
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S200000x128 .f32 := Host.absf main_arg9
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg10
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg11
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S500000 : Shape := ⟨1, ![500000]⟩
abbrev S200000 : Shape := ⟨1, ![200000]⟩
abbrev S1000000 : Shape := ⟨1, ![1000000]⟩
abbrev S500000x128 : Shape := ⟨2, ![500000, 128]⟩
abbrev S200000x128 : Shape := ⟨2, ![200000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S500000x1 : Shape := ⟨2, ![500000, 1]⟩
abbrev S200000x1 : Shape := ⟨2, ![200000, 1]⟩
abbrev S1x128 : Shape := ⟨2, ![1, 128]⟩
abbrev S5000x128 : Shape := ⟨2, ![5000, 128]⟩
abbrev S1000000x1 : Shape := ⟨2, ![1000000, 1]⟩
abbrev S1000000x128 : Shape := ⟨2, ![1000000, 128]⟩
abbrev S1x64 : Shape := ⟨2, ![1, 64]⟩
abbrev S500000x64 : Shape := ⟨2, ![500000, 64]⟩
abbrev S5000x64 : Shape := ⟨2, ![5000, 64]⟩
abbrev S200000x64 : Shape := ⟨2, ![200000, 64]⟩
abbrev S1x1 : Shape := ⟨2, ![1, 1]⟩
abbrev S5000x1 : Shape := ⟨2, ![5000, 1]⟩

abbrev nBuf : Space → Nat
  | .hbm => 213
  | .vmem => 65
  | .smem => 0
  | _ => 0

abbrev hbmTy0_0 (i : Nat) : BufTy := match i % 128 with
  | 0 => ⟨S500000, .i32⟩
  | 1 => ⟨S200000, .i32⟩
  | 2 => ⟨S200000, .i32⟩
  | 3 => ⟨S200000, .i32⟩
  | 4 => ⟨S1000000, .i32⟩
  | 5 => ⟨S1000000, .i32⟩
  | 6 => ⟨S500000, .i32⟩
  | 7 => ⟨S500000, .i32⟩
  | 8 => ⟨S500000x128, .f32⟩
  | 9 => ⟨S200000x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x64, .f32⟩
  | 20 => ⟨S64, .f32⟩
  | 21 => ⟨S128x128, .f32⟩
  | 22 => ⟨S128, .f32⟩
  | 23 => ⟨S128x128, .f32⟩
  | 24 => ⟨S128x128, .f32⟩
  | 25 => ⟨S128, .f32⟩
  | 26 => ⟨S128x128, .f32⟩
  | 27 => ⟨S128x64, .f32⟩
  | 28 => ⟨S64, .f32⟩
  | 29 => ⟨S128x64, .f32⟩
  | 30 => ⟨S64, .f32⟩
  | 31 => ⟨S64x1, .f32⟩
  | 32 => ⟨S1, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x128, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x128, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x128, .f32⟩
  | 60 => ⟨S_, .f32⟩
  | 61 => ⟨S200000x128, .f32⟩
  | 62 => ⟨S200000x1, .i32⟩
  | 63 => ⟨S200000x128, .f32⟩
  | 64 => ⟨S_, .f32⟩
  | 65 => ⟨S200000, .f32⟩
  | 66 => ⟨S_, .f32⟩
  | 67 => ⟨S200000, .f32⟩
  | 68 => ⟨S200000x1, .i32⟩
  | 69 => ⟨S200000, .f32⟩
  | 70 => ⟨S_, .f32⟩
  | 71 => ⟨S200000, .f32⟩
  | 72 => ⟨S200000, .f32⟩
  | 73 => ⟨S200000x1, .f32⟩
  | 74 => ⟨S200000x128, .f32⟩
  | 75 => ⟨S200000x128, .f32⟩
  | 76 => ⟨S1x128, .f32⟩
  | 77 => ⟨S200000x128, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x128, .f32⟩
  | 87 => ⟨S_, .f32⟩
  | 88 => ⟨S500000x128, .f32⟩
  | 89 => ⟨S1000000x1, .i32⟩
  | 90 => ⟨S500000x128, .f32⟩
  | 91 => ⟨S_, .f32⟩
  | 92 => ⟨S1000000, .f32⟩
  | 93 => ⟨S_, .f32⟩
  | 94 => ⟨S500000, .f32⟩
  | 95 => ⟨S1000000x1, .i32⟩
  | 96 => ⟨S500000, .f32⟩
  | 97 => ⟨S_, .f32⟩
  | 98 => ⟨S500000, .f32⟩
  | 99 => ⟨S500000, .f32⟩
  | 100 => ⟨S500000x1, .f32⟩
  | 101 => ⟨S500000x128, .f32⟩
  | 102 => ⟨S500000x128, .f32⟩
  | 103 => ⟨S1x128, .f32⟩
  | 104 => ⟨S500000x128, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x128, .f32⟩
  | 114 => ⟨S_, .f32⟩
  | 115 => ⟨S500000x128, .f32⟩
  | 116 => ⟨S1000000x1, .i32⟩
  | 117 => ⟨S500000x128, .f32⟩
  | 118 => ⟨S_, .f32⟩
  | 119 => ⟨S1000000, .f32⟩
  | 120 => ⟨S_, .f32⟩
  | 121 => ⟨S500000, .f32⟩
  | 122 => ⟨S1000000x1, .i32⟩
  | 123 => ⟨S500000, .f32⟩
  | 124 => ⟨S_, .f32⟩
  | 125 => ⟨S500000, .f32⟩
  | 126 => ⟨S500000, .f32⟩
  | 127 => ⟨S500000x1, .f32⟩
  | _ => ⟨S500000, .i32⟩

abbrev hbmTy0_1 (i : Nat) : BufTy := match i % 128 with
  | 0 => ⟨S500000x128, .f32⟩
  | 1 => ⟨S500000x128, .f32⟩
  | 2 => ⟨S1x128, .f32⟩
  | 3 => ⟨S500000x128, .f32⟩
  | 4 => ⟨S1x64, .f32⟩
  | 5 => ⟨S500000x64, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x128, .f32⟩
  | 15 => ⟨S_, .f32⟩
  | 16 => ⟨S200000x128, .f32⟩
  | 17 => ⟨S200000x1, .i32⟩
  | 18 => ⟨S200000x128, .f32⟩
  | 19 => ⟨S_, .f32⟩
  | 20 => ⟨S200000, .f32⟩
  | 21 => ⟨S_, .f32⟩
  | 22 => ⟨S200000, .f32⟩
  | 23 => ⟨S200000x1, .i32⟩
  | 24 => ⟨S200000, .f32⟩
  | 25 => ⟨S_, .f32⟩
  | 26 => ⟨S200000, .f32⟩
  | 27 => ⟨S200000, .f32⟩
  | 28 => ⟨S200000x1, .f32⟩
  | 29 => ⟨S200000x128, .f32⟩
  | 30 => ⟨S200000x128, .f32⟩
  | 31 => ⟨S1x128, .f32⟩
  | 32 => ⟨S200000x128, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x128, .f32⟩
  | 42 => ⟨S_, .f32⟩
  | 43 => ⟨S200000x128, .f32⟩
  | 44 => ⟨S200000x1, .i32⟩
  | 45 => ⟨S200000x128, .f32⟩
  | 46 => ⟨S_, .f32⟩
  | 47 => ⟨S200000, .f32⟩
  | 48 => ⟨S_, .f32⟩
  | 49 => ⟨S200000, .f32⟩
  | 50 => ⟨S200000x1, .i32⟩
  | 51 => ⟨S200000, .f32⟩
  | 52 => ⟨S_, .f32⟩
  | 53 => ⟨S200000, .f32⟩
  | 54 => ⟨S200000, .f32⟩
  | 55 => ⟨S200000x1, .f32⟩
  | 56 => ⟨S200000x128, .f32⟩
  | 57 => ⟨S200000x128, .f32⟩
  | 58 => ⟨S1x128, .f32⟩
  | 59 => ⟨S200000x128, .f32⟩
  | 60 => ⟨S1x64, .f32⟩
  | 61 => ⟨S200000x64, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x64, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x64, .f32⟩
  | 80 => ⟨S500000x128, .f32⟩
  | 81 => ⟨S1x64, .f32⟩
  | 82 => ⟨S1x1, .f32⟩
  | 83 => ⟨S500000x1, .f32⟩
  | 84 => ⟨S500000, .f32⟩
  | _ => ⟨S500000, .i32⟩

abbrev hbmTy (i : Nat) : BufTy := match i / 128 with
  | 0 => hbmTy0_0 i
  | 1 => hbmTy0_1 i
  | _ => ⟨S500000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | .local _ .vmem, ⟨57, _⟩ => ⟨S5000x128, .f32⟩
  | .local _ .vmem, ⟨58, _⟩ => ⟨S5000x128, .f32⟩
  | .local _ .vmem, ⟨59, _⟩ => ⟨S128x64, .f32⟩
  | .local _ .vmem, ⟨60, _⟩ => ⟨S1x64, .f32⟩
  | .local _ .vmem, ⟨61, _⟩ => ⟨S64x1, .f32⟩
  | .local _ .vmem, ⟨62, _⟩ => ⟨S1x1, .f32⟩
  | .local _ .vmem, ⟨63, _⟩ => ⟨S5000x1, .f32⟩
  | .local _ .vmem, ⟨64, _⟩ => ⟨S5000x1, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_c : Ref sig .tc := ⟨.hbm, 33, rfl⟩
abbrev main_v0 : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_c_1 : Ref sig .tc := ⟨.hbm, 42, rfl⟩
abbrev main_v7 : Ref sig .tc := ⟨.hbm, 43, rfl⟩
abbrev main_v8 : Ref sig .tc := ⟨.hbm, 44, rfl⟩
abbrev main_c_2 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c_3 : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_5 : Ref sig .tc := ⟨.hbm, 64, rfl⟩
abbrev main_v24 : Ref sig .tc := ⟨.hbm, 65, rfl⟩
abbrev main_cst_6 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_7 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_8 : Ref sig .tc := ⟨.hbm, 78, rfl⟩
abbrev main_v35 : Ref sig .tc := ⟨.hbm, 79, rfl⟩
abbrev main_v36 : Ref sig .tc := ⟨.hbm, 80, rfl⟩
abbrev main_c_9 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_10 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_11 : Ref sig .tc := ⟨.hbm, 91, rfl⟩
abbrev main_v45 : Ref sig .tc := ⟨.hbm, 92, rfl⟩
abbrev main_cst_12 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_13 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_14 : Ref sig .tc := ⟨.hbm, 105, rfl⟩
abbrev main_v56 : Ref sig .tc := ⟨.hbm, 106, rfl⟩
abbrev main_v57 : Ref sig .tc := ⟨.hbm, 107, rfl⟩
abbrev main_c_15 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_16 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_17 : Ref sig .tc := ⟨.hbm, 118, rfl⟩
abbrev main_v66 : Ref sig .tc := ⟨.hbm, 119, rfl⟩
abbrev main_cst_18 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_19 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_20 : Ref sig .tc := ⟨.hbm, 134, rfl⟩
abbrev main_v79 : Ref sig .tc := ⟨.hbm, 135, rfl⟩
abbrev main_v80 : Ref sig .tc := ⟨.hbm, 136, rfl⟩
abbrev main_c_21 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_22 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_23 : Ref sig .tc := ⟨.hbm, 147, rfl⟩
abbrev main_v89 : Ref sig .tc := ⟨.hbm, 148, rfl⟩
abbrev main_cst_24 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_25 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_c_26 : Ref sig .tc := ⟨.hbm, 161, rfl⟩
abbrev main_v100 : Ref sig .tc := ⟨.hbm, 162, rfl⟩
abbrev main_v101 : Ref sig .tc := ⟨.hbm, 163, rfl⟩
abbrev main_c_27 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_28 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_29 : Ref sig .tc := ⟨.hbm, 174, rfl⟩
abbrev main_v110 : Ref sig .tc := ⟨.hbm, 175, rfl⟩
abbrev main_cst_30 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_31 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_c_32 : Ref sig .tc := ⟨.hbm, 190, rfl⟩
abbrev main_v123 : Ref sig .tc := ⟨.hbm, 191, rfl⟩
abbrev main_v124 : Ref sig .tc := ⟨.hbm, 192, rfl⟩
abbrev main_c_33 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_34 : Ref sig .tc := ⟨.hbm, 199, rfl⟩
abbrev main_v130 : Ref sig .tc := ⟨.hbm, 200, rfl⟩
abbrev main_v131 : Ref sig .tc := ⟨.hbm, 201, rfl⟩
abbrev main_c_35 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg3_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg5_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem3_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem5_1 : DmaSem sig := 64

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S500000x64_S500000x64_S500000x128_d1 : Shape.Concatenates [S500000x64, S500000x64] S500000x128 1
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S500000x128_S500000x1_S500000x128_1_0_n_n_0_1_1128_wf : GatherDims.WF S500000x128 S500000x1 S500000x128 [1] [0] [] [0] [] 1 ![1, 128]
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  scatter_S200000_S200000x1_S200000_n_0_0_1_wf : ScatterDims.WF S200000 S200000x1 S200000 [] [0] [0] 1
  dot_S5000x128_S128x128_S5000x128_1_0_0_1_n_n_wf : DotDims.WF S5000x128 S128x128 S5000x128 [1] [0] [0] [1] [] []
  gather_S200000x128_S1000000x1_S1000000x128_1_0_n_n_0_1_1128_wf : GatherDims.WF S200000x128 S1000000x1 S1000000x128 [1] [0] [] [0] [] 1 ![1, 128]
  scatter_S500000x128_S1000000x1_S1000000x128_1_0_0_1_wf : ScatterDims.WF S500000x128 S1000000x1 S1000000x128 [1] [0] [0] 1
  scatter_S500000_S1000000x1_S1000000_n_0_0_1_wf : ScatterDims.WF S500000 S1000000x1 S1000000 [] [0] [0] 1
  dot_S5000x128_S128x64_S5000x64_1_0_0_1_n_n_wf : DotDims.WF S5000x128 S128x64 S5000x64 [1] [0] [0] [1] [] []
  gather_S500000x64_S500000x1_S500000x64_1_0_n_n_0_1_164_wf : GatherDims.WF S500000x64 S500000x1 S500000x64 [1] [0] [] [0] [] 1 ![1, 64]
  gather_S200000x64_S500000x1_S500000x64_1_0_n_n_0_1_164_wf : GatherDims.WF S200000x64 S500000x1 S500000x64 [1] [0] [] [0] [] 1 ![1, 64]
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S200000x128.size a
  hwx0_1 : ∀ i : grid0.Coords, EltTy.bits .f32 = 32 ∨ (Rect.block (s := S200000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S200000x128.size a
  hwx0_5 : ∀ i : grid0.Coords, EltTy.bits .f32 = 32 ∨ (Rect.block (s := S200000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S500000x128.size a
  hwx1_5 : ∀ i : grid1.Coords, EltTy.bits .f32 = 32 ∨ (Rect.block (s := S500000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S500000x128.size a
  hwx2_5 : ∀ i : grid2.Coords, EltTy.bits .f32 = 32 ∨ (Rect.block (s := S500000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .f32 = 32 ∨ (Rect.block (s := S500000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S500000x64.size a
  hwx3_3 : ∀ i : grid3.Coords, EltTy.bits .f32 = 32 ∨ (Rect.block (s := S500000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S200000x128.size a
  hwx4_5 : ∀ i : grid4.Coords, EltTy.bits .f32 = 32 ∨ (Rect.block (s := S200000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S200000x128.size a
  hwx5_0 : ∀ i : grid5.Coords, EltTy.bits .f32 = 32 ∨ (Rect.block (s := S200000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S200000x128.size a
  hwx5_1 : ∀ i : grid5.Coords, EltTy.bits .f32 = 32 ∨ (Rect.block (s := S200000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S200000x128.size a
  hwx5_5 : ∀ i : grid5.Coords, EltTy.bits .f32 = 32 ∨ (Rect.block (s := S200000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .f32 = 32 ∨ (Rect.block (s := S200000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S200000x64.size a
  hwx6_3 : ∀ i : grid6.Coords, EltTy.bits .f32 = 32 ∨ (Rect.block (s := S200000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S500000x128.size a
  hwx7_0 : ∀ i : grid7.Coords, EltTy.bits .f32 = 32 ∨ (Rect.block (s := S500000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x1.size a ≤ S64x1.size a
  hwx7_3 : ∀ i : grid7.Coords, EltTy.bits .f32 = 32 ∨ (Rect.block (s := S64x1) S64x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S500000x1.size a
  hwx7_5 : ∀ i : grid7.Coords, EltTy.bits .f32 = 32 ∨ (Rect.block (s := S500000x1) S5000x1.size (cc7_transform_5 i) (hinb7_5 i)).WholeWords (EltTy.packing .f32)

variable [Facts₀]

def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S500000x64_S500000x1_S500000x64_1_0_n_n_0_1_164 : GatherDims S500000x64 S500000x1 S500000x64 where
  offsetDims := [1]
  collapsedSliceDims := [0]
  operandBatchingDims := []
  startIndicesBatchingDims := []
  startIndexMap := [0]
  indexVectorDim := 1
  sliceSizes := ![1, 64]
  wf := gather_S500000x64_S500000x1_S500000x64_1_0_n_n_0_1_164_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v97) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg21) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg23) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v118) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg24) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v119) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg26) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v120) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg27) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v121) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v122) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v137) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg29) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v138) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg31) S64x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v139) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v140) S5000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S500000 : Shape := ⟨1, ![500000]⟩
abbrev S200000 : Shape := ⟨1, ![200000]⟩
abbrev S1000000 : Shape := ⟨1, ![1000000]⟩
abbrev S500000x128 : Shape := ⟨2, ![500000, 128]⟩
abbrev S200000x128 : Shape := ⟨2, ![200000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S500000x1 : Shape := ⟨2, ![500000, 1]⟩
abbrev S200000x1 : Shape := ⟨2, ![200000, 1]⟩
abbrev S1x128 : Shape := ⟨2, ![1, 128]⟩
abbrev S1000000x1 : Shape := ⟨2, ![1000000, 1]⟩
abbrev S1000000x128 : Shape := ⟨2, ![1000000, 128]⟩
abbrev S500000x64 : Shape := ⟨2, ![500000, 64]⟩
abbrev S1x64 : Shape := ⟨2, ![1, 64]⟩
abbrev S200000x64 : Shape := ⟨2, ![200000, 64]⟩
abbrev S1x1 : Shape := ⟨2, ![1, 1]⟩

abbrev nBuf : Space → Nat
  | .hbm => 260
  | .vmem => 0
  | .smem => 0
  | _ => 0

abbrev hbmTy0_0 (i : Nat) : BufTy := match i % 128 with
  | 0 => ⟨S500000, .i32⟩
  | 1 => ⟨S200000, .i32⟩
  | 2 => ⟨S200000, .i32⟩
  | 3 => ⟨S200000, .i32⟩
  | 4 => ⟨S1000000, .i32⟩
  | 5 => ⟨S1000000, .i32⟩
  | 6 => ⟨S500000, .i32⟩
  | 7 => ⟨S500000, .i32⟩
  | 8 => ⟨S500000x128, .f32⟩
  | 9 => ⟨S200000x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x64, .f32⟩
  | 20 => ⟨S64, .f32⟩
  | 21 => ⟨S128x128, .f32⟩
  | 22 => ⟨S128, .f32⟩
  | 23 => ⟨S128x128, .f32⟩
  | 24 => ⟨S128x128, .f32⟩
  | 25 => ⟨S128, .f32⟩
  | 26 => ⟨S128x128, .f32⟩
  | 27 => ⟨S128x64, .f32⟩
  | 28 => ⟨S64, .f32⟩
  | 29 => ⟨S128x64, .f32⟩
  | 30 => ⟨S64, .f32⟩
  | 31 => ⟨S64x1, .f32⟩
  | 32 => ⟨S1, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x128, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x128, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x128, .f32⟩
  | 60 => ⟨S_, .f32⟩
  | 61 => ⟨S200000x128, .f32⟩
  | 62 => ⟨S200000x1, .i32⟩
  | 63 => ⟨S200000x128, .f32⟩
  | 64 => ⟨S_, .f32⟩
  | 65 => ⟨S200000, .f32⟩
  | 66 => ⟨S_, .f32⟩
  | 67 => ⟨S200000, .f32⟩
  | 68 => ⟨S200000x1, .i32⟩
  | 69 => ⟨S200000, .f32⟩
  | 70 => ⟨S_, .f32⟩
  | 71 => ⟨S200000, .f32⟩
  | 72 => ⟨S200000, .f32⟩
  | 73 => ⟨S200000x1, .f32⟩
  | 74 => ⟨S200000x128, .f32⟩
  | 75 => ⟨S200000x128, .f32⟩
  | 76 => ⟨S200000x128, .f32⟩
  | 77 => ⟨S1x128, .f32⟩
  | 78 => ⟨S200000x128, .f32⟩
  | 79 => ⟨S200000x128, .f32⟩
  | 80 => ⟨S200000x128, .f32⟩
  | 81 => ⟨S200000x128, .f32⟩
  | 82 => ⟨S_, .f32⟩
  | 83 => ⟨S200000x128, .f32⟩
  | 84 => ⟨S200000x128, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x128, .f32⟩
  | 94 => ⟨S_, .f32⟩
  | 95 => ⟨S500000x128, .f32⟩
  | 96 => ⟨S1000000x1, .i32⟩
  | 97 => ⟨S500000x128, .f32⟩
  | 98 => ⟨S_, .f32⟩
  | 99 => ⟨S1000000, .f32⟩
  | 100 => ⟨S_, .f32⟩
  | 101 => ⟨S500000, .f32⟩
  | 102 => ⟨S1000000x1, .i32⟩
  | 103 => ⟨S500000, .f32⟩
  | 104 => ⟨S_, .f32⟩
  | 105 => ⟨S500000, .f32⟩
  | 106 => ⟨S500000, .f32⟩
  | 107 => ⟨S500000x1, .f32⟩
  | 108 => ⟨S500000x128, .f32⟩
  | 109 => ⟨S500000x128, .f32⟩
  | 110 => ⟨S500000x128, .f32⟩
  | 111 => ⟨S1x128, .f32⟩
  | 112 => ⟨S500000x128, .f32⟩
  | 113 => ⟨S500000x128, .f32⟩
  | 114 => ⟨S500000x128, .f32⟩
  | 115 => ⟨S500000x128, .f32⟩
  | 116 => ⟨S_, .f32⟩
  | 117 => ⟨S500000x128, .f32⟩
  | 118 => ⟨S500000x128, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x128, .f32⟩
  | _ => ⟨S500000, .i32⟩

abbrev hbmTy0_1 (i : Nat) : BufTy := match i % 128 with
  | 0 => ⟨S_, .f32⟩
  | 1 => ⟨S500000x128, .f32⟩
  | 2 => ⟨S1000000x1, .i32⟩
  | 3 => ⟨S500000x128, .f32⟩
  | 4 => ⟨S_, .f32⟩
  | 5 => ⟨S1000000, .f32⟩
  | 6 => ⟨S_, .f32⟩
  | 7 => ⟨S500000, .f32⟩
  | 8 => ⟨S1000000x1, .i32⟩
  | 9 => ⟨S500000, .f32⟩
  | 10 => ⟨S_, .f32⟩
  | 11 => ⟨S500000, .f32⟩
  | 12 => ⟨S500000, .f32⟩
  | 13 => ⟨S500000x1, .f32⟩
  | 14 => ⟨S500000x128, .f32⟩
  | 15 => ⟨S500000x128, .f32⟩
  | 16 => ⟨S500000x128, .f32⟩
  | 17 => ⟨S1x128, .f32⟩
  | 18 => ⟨S500000x128, .f32⟩
  | 19 => ⟨S500000x128, .f32⟩
  | 20 => ⟨S500000x128, .f32⟩
  | 21 => ⟨S500000x128, .f32⟩
  | 22 => ⟨S_, .f32⟩
  | 23 => ⟨S500000x128, .f32⟩
  | 24 => ⟨S500000x128, .f32⟩
  | 25 => ⟨S500000x64, .f32⟩
  | 26 => ⟨S1x64, .f32⟩
  | 27 => ⟨S500000x64, .f32⟩
  | 28 => ⟨S500000x64, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x128, .f32⟩
  | 38 => ⟨S_, .f32⟩
  | 39 => ⟨S200000x128, .f32⟩
  | 40 => ⟨S200000x1, .i32⟩
  | 41 => ⟨S200000x128, .f32⟩
  | 42 => ⟨S_, .f32⟩
  | 43 => ⟨S200000, .f32⟩
  | 44 => ⟨S_, .f32⟩
  | 45 => ⟨S200000, .f32⟩
  | 46 => ⟨S200000x1, .i32⟩
  | 47 => ⟨S200000, .f32⟩
  | 48 => ⟨S_, .f32⟩
  | 49 => ⟨S200000, .f32⟩
  | 50 => ⟨S200000, .f32⟩
  | 51 => ⟨S200000x1, .f32⟩
  | 52 => ⟨S200000x128, .f32⟩
  | 53 => ⟨S200000x128, .f32⟩
  | 54 => ⟨S200000x128, .f32⟩
  | 55 => ⟨S1x128, .f32⟩
  | 56 => ⟨S200000x128, .f32⟩
  | 57 => ⟨S200000x128, .f32⟩
  | 58 => ⟨S200000x128, .f32⟩
  | 59 => ⟨S200000x128, .f32⟩
  | 60 => ⟨S_, .f32⟩
  | 61 => ⟨S200000x128, .f32⟩
  | 62 => ⟨S200000x128, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x128, .f32⟩
  | 72 => ⟨S_, .f32⟩
  | 73 => ⟨S200000x128, .f32⟩
  | 74 => ⟨S200000x1, .i32⟩
  | 75 => ⟨S200000x128, .f32⟩
  | 76 => ⟨S_, .f32⟩
  | 77 => ⟨S200000, .f32⟩
  | 78 => ⟨S_, .f32⟩
  | 79 => ⟨S200000, .f32⟩
  | 80 => ⟨S200000x1, .i32⟩
  | 81 => ⟨S200000, .f32⟩
  | 82 => ⟨S_, .f32⟩
  | 83 => ⟨S200000, .f32⟩
  | 84 => ⟨S200000, .f32⟩
  | 85 => ⟨S200000x1, .f32⟩
  | 86 => ⟨S200000x128, .f32⟩
  | 87 => ⟨S200000x128, .f32⟩
  | 88 => ⟨S200000x128, .f32⟩
  | 89 => ⟨S1x128, .f32⟩
  | 90 => ⟨S200000x128, .f32⟩
  | 91 => ⟨S200000x128, .f32⟩
  | 92 => ⟨S200000x128, .f32⟩
  | 93 => ⟨S200000x128, .f32⟩
  | 94 => ⟨S_, .f32⟩
  | 95 => ⟨S200000x128, .f32⟩
  | 96 => ⟨S200000x128, .f32⟩
  | 97 => ⟨S200000x64, .f32⟩
  | 98 => ⟨S1x64, .f32⟩
  | 99 => ⟨S200000x64, .f32⟩
  | 100 => ⟨S200000x64, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x64, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x64, .f32⟩
  | 119 => ⟨S500000x128, .f32⟩
  | 120 => ⟨S500000x64, .f32⟩
  | 121 => ⟨S1x64, .f32⟩
  | 122 => ⟨S500000x64, .f32⟩
  | 123 => ⟨S500000x64, .f32⟩
  | 124 => ⟨S_, .f32⟩
  | 125 => ⟨S500000x64, .f32⟩
  | 126 => ⟨S500000x64, .f32⟩
  | 127 => ⟨S500000x1, .f32⟩
  | _ => ⟨S500000, .i32⟩

abbrev hbmTy0_2 (i : Nat) : BufTy := match i % 128 with
  | 0 => ⟨S1x1, .f32⟩
  | 1 => ⟨S500000x1, .f32⟩
  | 2 => ⟨S500000x1, .f32⟩
  | 3 => ⟨S500000, .f32⟩
  | _ => ⟨S500000, .i32⟩

abbrev hbmTy (i : Nat) : BufTy := match i / 128 with
  | 0 => hbmTy0_0 i
  | 1 => hbmTy0_1 i
  | 2 => hbmTy0_2 i
  | _ => ⟨S500000, .i32⟩

abbrev bufTy : (tb : Table) → Fin (tcTables nBuf tb) → BufTy
  | .hbm, ⟨i, _⟩ => hbmTy i
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_c : Ref sig .tc := ⟨.hbm, 33, rfl⟩
abbrev main_v0 : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_c_1 : Ref sig .tc := ⟨.hbm, 42, rfl⟩
abbrev main_v7 : Ref sig .tc := ⟨.hbm, 43, rfl⟩
abbrev main_v8 : Ref sig .tc := ⟨.hbm, 44, rfl⟩
abbrev main_c_2 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c_3 : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_5 : Ref sig .tc := ⟨.hbm, 64, rfl⟩
abbrev main_v24 : Ref sig .tc := ⟨.hbm, 65, rfl⟩
abbrev main_cst_6 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_7 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_call0_cst : Ref sig .tc := ⟨.hbm, 82, rfl⟩
abbrev main_call0_v0 : Ref sig .tc := ⟨.hbm, 83, rfl⟩
abbrev main_v39 : Ref sig .tc := ⟨.hbm, 84, rfl⟩
abbrev main_c_8 : Ref sig .tc := ⟨.hbm, 85, rfl⟩
abbrev main_v40 : Ref sig .tc := ⟨.hbm, 86, rfl⟩
abbrev main_v41 : Ref sig .tc := ⟨.hbm, 87, rfl⟩
abbrev main_c_9 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_10 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_11 : Ref sig .tc := ⟨.hbm, 98, rfl⟩
abbrev main_v50 : Ref sig .tc := ⟨.hbm, 99, rfl⟩
abbrev main_cst_12 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_13 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_call1_cst : Ref sig .tc := ⟨.hbm, 116, rfl⟩
abbrev main_call1_v0 : Ref sig .tc := ⟨.hbm, 117, rfl⟩
abbrev main_v65 : Ref sig .tc := ⟨.hbm, 118, rfl⟩
abbrev main_c_14 : Ref sig .tc := ⟨.hbm, 119, rfl⟩
abbrev main_v66 : Ref sig .tc := ⟨.hbm, 120, rfl⟩
abbrev main_v67 : Ref sig .tc := ⟨.hbm, 121, rfl⟩
abbrev main_c_15 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_16 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_17 : Ref sig .tc := ⟨.hbm, 132, rfl⟩
abbrev main_v76 : Ref sig .tc := ⟨.hbm, 133, rfl⟩
abbrev main_cst_18 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_19 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_call2_cst : Ref sig .tc := ⟨.hbm, 150, rfl⟩
abbrev main_call2_v0 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_c_20 : Ref sig .tc := ⟨.hbm, 157, rfl⟩
abbrev main_v96 : Ref sig .tc := ⟨.hbm, 158, rfl⟩
abbrev main_v97 : Ref sig .tc := ⟨.hbm, 159, rfl⟩
abbrev main_c_21 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_22 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_23 : Ref sig .tc := ⟨.hbm, 170, rfl⟩
abbrev main_v106 : Ref sig .tc := ⟨.hbm, 171, rfl⟩
abbrev main_cst_24 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_25 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_call3_cst : Ref sig .tc := ⟨.hbm, 188, rfl⟩
abbrev main_call3_v0 : Ref sig .tc := ⟨.hbm, 189, rfl⟩
abbrev main_v121 : Ref sig .tc := ⟨.hbm, 190, rfl⟩
abbrev main_c_26 : Ref sig .tc := ⟨.hbm, 191, rfl⟩
abbrev main_v122 : Ref sig .tc := ⟨.hbm, 192, rfl⟩
abbrev main_v123 : Ref sig .tc := ⟨.hbm, 193, rfl⟩
abbrev main_c_27 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_cst_28 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_cst_29 : Ref sig .tc := ⟨.hbm, 204, rfl⟩
abbrev main_v132 : Ref sig .tc := ⟨.hbm, 205, rfl⟩
abbrev main_cst_30 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_cst_31 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_call4_cst : Ref sig .tc := ⟨.hbm, 222, rfl⟩
abbrev main_call4_v0 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_c_32 : Ref sig .tc := ⟨.hbm, 229, rfl⟩
abbrev main_v152 : Ref sig .tc := ⟨.hbm, 230, rfl⟩
abbrev main_v153 : Ref sig .tc := ⟨.hbm, 231, rfl⟩
abbrev main_c_33 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_c_34 : Ref sig .tc := ⟨.hbm, 238, rfl⟩
abbrev main_v159 : Ref sig .tc := ⟨.hbm, 239, rfl⟩
abbrev main_v160 : Ref sig .tc := ⟨.hbm, 240, rfl⟩
abbrev main_c_35 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_call5_cst : Ref sig .tc := ⟨.hbm, 252, rfl⟩
abbrev main_call5_v0 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  bcast_S1x128_S500000x128_0_1 : S1x128.BroadcastsInDim S500000x128 (![0, 1] : Fin 2 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S1x64_S200000x64_0_1 : S1x64.BroadcastsInDim S200000x64 (![0, 1] : Fin 2 → Fin S200000x64.rank)
  concatenates_S500000x64_S500000x64_S500000x128_d1 : Shape.Concatenates [S500000x64, S500000x64] S500000x128 1
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S500000x128_S500000x1_S500000x128_1_0_n_n_0_1_1128_wf : GatherDims.WF S500000x128 S500000x1 S500000x128 [1] [0] [] [0] [] 1 ![1, 128]
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  scatter_S200000_S200000x1_S200000_n_0_0_1_wf : ScatterDims.WF S200000 S200000x1 S200000 [] [0] [0] 1
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S500000x128_S1000000x1_S1000000x128_1_0_0_1_wf : ScatterDims.WF S500000x128 S1000000x1 S1000000x128 [1] [0] [0] 1
  scatter_S500000_S1000000x1_S1000000_n_0_0_1_wf : ScatterDims.WF S500000 S1000000x1 S1000000 [] [0] [0] 1
  dot_S500000x128_S128x128_S500000x128_1_0_0_1_n_n_wf : DotDims.WF S500000x128 S128x128 S500000x128 [1] [0] [0] [1] [] []
  dot_S500000x128_S128x64_S500000x64_1_0_0_1_n_n_wf : DotDims.WF S500000x128 S128x64 S500000x64 [1] [0] [0] [1] [] []
  dot_S200000x128_S128x64_S200000x64_1_0_0_1_n_n_wf : DotDims.WF S200000x128 S128x64 S200000x64 [1] [0] [0] [1] [] []
  gather_S500000x64_S500000x1_S500000x64_1_0_n_n_0_1_164_wf : GatherDims.WF S500000x64 S500000x1 S500000x64 [1] [0] [] [0] [] 1 ![1, 64]
  gather_S200000x64_S500000x1_S500000x64_1_0_n_n_0_1_164_wf : GatherDims.WF S200000x64 S500000x1 S500000x64 [1] [0] [] [0] [] 1 ![1, 64]
  dot_S500000x64_S64x1_S500000x1_1_0_0_1_n_n_wf : DotDims.WF S500000x64 S64x1 S500000x1 [1] [0] [0] [1] [] []

variable [Facts₀]

def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S500000x64_S500000x1_S500000x64_1_0_n_n_0_1_164 : GatherDims S500000x64 S500000x1 S500000x64 where
  offsetDims := [1]
  collapsedSliceDims := [0]
  operandBatchingDims := []
  startIndicesBatchingDims := []
  startIndexMap := [0]
  indexVectorDim := 1
  sliceSizes := ![1, 64]
  wf := gather_S500000x64_S500000x1_S500000x64_1_0_n_n_0_1_164_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KernelRun.lean ====
/-
  The idealized kernel program's run, with the final contents of every unscoped buffer kept.

  The program is nine stretches of host operations around eight tiled regions.  Its buffers' contents at
  each boundary form a fold from the launch memory: a stretch applies its operations, a region replaces its
  output array by what its write-backs leave and keeps everything else.  Every weakly fair execution
  terminates, and in the final state each unscoped buffer holds the last value of that fold.  From this one
  fact follow both the result buffer's contents and that the argument arrays end as launched.
-/
import proofs.«153538_j79937931313419_1_alg».proof.Proof.Gen.KernelIdeal.Frame

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last value of the boundary fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The result buffer is unscoped, so the run names its final contents. -/
theorem result_mem : Proc.devRef .tc main_v141 ∈ Pipeline.ucRefs τ sig := mem_uc main_v141 (by decide)

end Cert.Sage.KRun

end
-- ==== Proof.Walk.lean ====
/-
  The idealized kernel program's buffers, read through its boundary fold.

  The program alternates stretches of host operations with tiled regions.  A buffer's contents at a boundary
  are found by walking back: a stretch's own results are its operations applied to the contents before it, any
  other buffer is carried back unchanged, and a region keeps every buffer except its own arrays.  Walking each
  region's inputs back to the launch memory shows they are the reference program's own stage functions of the
  argument arrays — the aggregation (gather, scatter-add, division by the clamped degree), the embedding
  look-ups and the index arithmetic are the same host operations in both programs, so the two terms agree
  operation for operation.  Where an input depends on an earlier region's output, that output enters as a
  hypothesis stated in the same terms.
-/
import proofs.«153538_j79937931313419_1_alg».proof.Proof.Gen.KernelIdeal.Frame
import proofs.«153538_j79937931313419_1_alg».proof.Proof.Gen.ReferenceIdeal.Read
import Idealize.ShloMosaic.Lib.StableHlo.Run
import Idealize.ShloMosaic.PureOps.Ideal

set_option maxRecDepth 16384

noncomputable section

namespace Cert.Sage.Walk

open Idealize.ShloMosaic Idealize.ShloMosaic.TcCoe Idealize.SL.Sem Idealize.ShloMosaic.StableHlo
open Cert.KernelIdeal Cert.KernelIdeal.Gen
open Cert.ReferenceIdeal.Read (val_main_v6 val_main_v13 val_main_v32 val_main_v39 val_main_v58 val_main_v65 val_main_v84
  val_main_v91 val_main_v95 val_main_v114 val_main_v121 val_main_v140 val_main_v147 val_main_v151 val_main_v158 val_main_v165 val_main_v166
  val_main_v175 val_main_v176)

variable (m : (ℓ : Loc nD τ sig) → Buf (Elt Ideal) ℓ) (ρ : Dev nD → PrngReg) (c : Dev nD)

/-- At launch a buffer holds the launch memory's contents. -/
theorem W0_at (b : Ref sig .tc) : W0 m ρ c (no_index (Proc.devRef .tc b)) = m ((c : Thread nD τ).loc b) := rfl

/-! ## A region keeps every buffer that is not one of its arrays -/

theorem W2_keep {b : Ref sig .tc} (hb : ∀ w, Pipeline.arrRef spec0 w ≠ b) :
    W2 m ρ c (no_index (Proc.devRef .tc b)) = W1 m ρ c (Proc.devRef .tc b) := W2_of_ne m ρ c b hb
theorem W4_keep {b : Ref sig .tc} (hb : ∀ w, Pipeline.arrRef spec1 w ≠ b) :
    W4 m ρ c (no_index (Proc.devRef .tc b)) = W3 m ρ c (Proc.devRef .tc b) := W4_of_ne m ρ c b hb
theorem W6_keep {b : Ref sig .tc} (hb : ∀ w, Pipeline.arrRef spec2 w ≠ b) :
    W6 m ρ c (no_index (Proc.devRef .tc b)) = W5 m ρ c (Proc.devRef .tc b) := W6_of_ne m ρ c b hb
theorem W8_keep {b : Ref sig .tc} (hb : ∀ w, Pipeline.arrRef spec3 w ≠ b) :
    W8 m ρ c (no_index (Proc.devRef .tc b)) = W7 m ρ c (Proc.devRef .tc b) := W8_of_ne m ρ c b hb
theorem W10_keep {b : Ref sig .tc} (hb : ∀ w, Pipeline.arrRef spec4 w ≠ b) :
    W10 m ρ c (no_index (Proc.devRef .tc b)) = W9 m ρ c (Proc.devRef .tc b) := W10_of_ne m ρ c b hb
theorem W12_keep {b : Ref sig .tc} (hb : ∀ w, Pipeline.arrRef spec5 w ≠ b) :
    W12 m ρ c (no_index (Proc.devRef .tc b)) = W11 m ρ c (Proc.devRef .tc b) := W12_of_ne m ρ c b hb
theorem W14_keep {b : Ref sig .tc} (hb : ∀ w, Pipeline.arrRef spec6 w ≠ b) :
    W14 m ρ c (no_index (Proc.devRef .tc b)) = W13 m ρ c (Proc.devRef .tc b) := W14_of_ne m ρ c b hb
theorem W16_keep {b : Ref sig .tc} (hb : ∀ w, Pipeline.arrRef spec7 w ≠ b) :
    W16 m ρ c (no_index (Proc.devRef .tc b)) = W15 m ρ c (Proc.devRef .tc b) := W16_of_ne m ρ c b hb

/-- Region 0 reads the taxon embeddings through an input window, so that array ends as it was entered. -/
theorem W2_x : W2 m ρ c (no_index (Proc.devRef .tc main_v13)) = W1 m ρ c (Proc.devRef .tc main_v13) := by
  refine (W2_arr m ρ c 1).trans ?_
  rw [(dat0 (V1 m ρ) c).arrAt_in 1 rfl cfg0.N, A_eq0]

/-- Read a buffer through the boundary fold, down to the launch memory or to an earlier region's output given as a
    hypothesis. -/
macro "walk" : tactic =>
    `(tactic| simp (disch := decide) only [V1, V3, V5, V7, V9, V11, V13, V15, W1, W3, W5, W7, W9, W11, W13, W15, W17,
      hostOps0, hostOps1, hostOps2, hostOps3, hostOps4, hostOps5, hostOps6, hostOps7, hostOps8,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W6_keep, W8_keep, W10_keep, W12_keep, W14_keep, W16_keep, W0_at, W2_x, *])

/-! ## Region 0 (taxon nodes, first encoder layer): its five inputs -/

/-- The mean of the neighbours' embeddings, as the reference computes it. -/
theorem in0_agg :
    V1 m ρ c main_v32 = val_main_v32 (F := Ideal) (m ((c : Thread nD τ).loc main_arg1)) (m ((c : Thread nD τ).loc main_arg2)) (m ((c : Thread nD τ).loc main_arg3)) (m ((c : Thread nD τ).loc main_arg9)) := by
  walk
  try rfl

/-- The taxon embeddings looked up at their ids. -/
theorem in0_x :
    V1 m ρ c main_v13 = val_main_v13 (F := Ideal) (m ((c : Thread nD τ).loc main_arg1)) (m ((c : Thread nD τ).loc main_arg9)) := by
  walk
  try rfl

theorem in0_wl :
    V1 m ρ c main_arg10 = (m ((c : Thread nD τ).loc main_arg10)) := by
  walk
  try rfl

/-- The bias as one row. -/
theorem in0_b :
    V1 m ρ c main_v33 = shapeCast S1x128 (m ((c : Thread nD τ).loc main_arg11)) shapeCasts_S128_S1x128 := by
  walk
  try rfl

theorem in0_wr :
    V1 m ρ c main_arg12 = (m ((c : Thread nD τ).loc main_arg12)) := by
  walk
  try rfl

/-! ## Region 1 (sample nodes, first layer from taxon embeddings) -/

theorem in1_agg :
    V3 m ρ c main_v53 = val_main_v58 (F := Ideal) (m ((c : Thread nD τ).loc main_arg1)) (m ((c : Thread nD τ).loc main_arg4)) (m ((c : Thread nD τ).loc main_arg5)) (m ((c : Thread nD τ).loc main_arg9)) := by
  walk
  try rfl

theorem in1_x :
    V3 m ρ c main_v6 = val_main_v6 (F := Ideal) (m ((c : Thread nD τ).loc main_arg0)) (m ((c : Thread nD τ).loc main_arg8)) := by
  walk
  try rfl

theorem in1_wl :
    V3 m ρ c main_arg13 = (m ((c : Thread nD τ).loc main_arg13)) := by
  walk
  try rfl

theorem in1_b :
    V3 m ρ c main_v54 = shapeCast S1x128 (m ((c : Thread nD τ).loc main_arg14)) shapeCasts_S128_S1x128 := by
  walk
  try rfl

theorem in1_wr :
    V3 m ρ c main_arg15 = (m ((c : Thread nD τ).loc main_arg15)) := by
  walk
  try rfl

/-! ## Region 2 (sample nodes, second layer: neighbours are region 0's rows, own rows region 1's) -/

theorem in2_agg
    (hO0 : W2 m ρ c (no_index (Proc.devRef .tc main_v34)) = val_main_v39 (F := Ideal) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12))) :
    V5 m ρ c main_v74 = val_main_v84 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  walk
  try rfl

theorem in2_x
    (hO1 : W4 m ρ c (no_index (Proc.devRef .tc main_v55)) = val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) :
    V5 m ρ c main_v55 = val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15)) := by
  walk
  try rfl

theorem in2_wl :
    V5 m ρ c main_arg16 = (m ((c : Thread nD τ).loc main_arg16)) := by
  walk
  try rfl

theorem in2_b :
    V5 m ρ c main_v75 = shapeCast S1x128 (m ((c : Thread nD τ).loc main_arg17)) shapeCasts_S128_S1x128 := by
  walk
  try rfl

theorem in2_wr :
    V5 m ρ c main_arg18 = (m ((c : Thread nD τ).loc main_arg18)) := by
  walk
  try rfl

/-! ## Region 3 (the sample head) -/

theorem in3_x
    (hO2 : W6 m ρ c (no_index (Proc.devRef .tc main_v76)) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) :
    V7 m ρ c main_v76 = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  walk
  try rfl

theorem in3_w :
    V7 m ρ c main_arg19 = (m ((c : Thread nD τ).loc main_arg19)) := by
  walk
  try rfl

theorem in3_b :
    V7 m ρ c main_v77 = shapeCast S1x64 (m ((c : Thread nD τ).loc main_arg20)) shapeCasts_S64_S1x64 := by
  walk
  try rfl

/-! ## Region 4 (taxon encoder, first layer) -/

set_option maxHeartbeats 4000000 in
theorem in4_agg :
    V9 m ρ c main_v97 = val_main_v114 (F := Ideal) (m ((c : Thread nD τ).loc main_arg1)) (m ((c : Thread nD τ).loc main_arg2)) (m ((c : Thread nD τ).loc main_arg3)) (m ((c : Thread nD τ).loc main_arg9)) := by
  walk
  try rfl

theorem in4_x :
    V9 m ρ c main_v13 = val_main_v13 (F := Ideal) (m ((c : Thread nD τ).loc main_arg1)) (m ((c : Thread nD τ).loc main_arg9)) := by
  walk
  try rfl

theorem in4_wl :
    V9 m ρ c main_arg21 = (m ((c : Thread nD τ).loc main_arg21)) := by
  walk
  try rfl

theorem in4_b :
    V9 m ρ c main_v98 = shapeCast S1x128 (m ((c : Thread nD τ).loc main_arg22)) shapeCasts_S128_S1x128 := by
  walk
  try rfl

theorem in4_wr :
    V9 m ρ c main_arg23 = (m ((c : Thread nD τ).loc main_arg23)) := by
  walk
  try rfl

/-! ## Region 5 (taxon encoder, second layer: neighbours and own rows are region 4's) -/

set_option maxHeartbeats 4000000 in
theorem in5_agg
    (hO4 : W10 m ρ c (no_index (Proc.devRef .tc main_v99)) = val_main_v121 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23))) :
    V11 m ρ c main_v118 = val_main_v140 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) := by
  walk
  try rfl

theorem in5_x
    (hO4 : W10 m ρ c (no_index (Proc.devRef .tc main_v99)) = val_main_v121 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23))) :
    V11 m ρ c main_v99 = val_main_v121 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) := by
  walk
  try rfl

theorem in5_wl :
    V11 m ρ c main_arg24 = (m ((c : Thread nD τ).loc main_arg24)) := by
  walk
  try rfl

theorem in5_b :
    V11 m ρ c main_v119 = shapeCast S1x128 (m ((c : Thread nD τ).loc main_arg25)) shapeCasts_S128_S1x128 := by
  walk
  try rfl

theorem in5_wr :
    V11 m ρ c main_arg26 = (m ((c : Thread nD τ).loc main_arg26)) := by
  walk
  try rfl

/-! ## Region 6 (the taxon head) -/

theorem in6_x
    (hO5 : W12 m ρ c (no_index (Proc.devRef .tc main_v120)) = val_main_v147 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) :
    V13 m ρ c main_v120 = val_main_v147 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  walk
  try rfl

theorem in6_w :
    V13 m ρ c main_arg27 = (m ((c : Thread nD τ).loc main_arg27)) := by
  walk
  try rfl

theorem in6_b :
    V13 m ρ c main_v121 = shapeCast S1x64 (m ((c : Thread nD τ).loc main_arg28)) shapeCasts_S64_S1x64 := by
  walk
  try rfl

/-! ## Region 7 (the edge decoder: the two heads' rows gathered at the label edges and joined; the joined array is
    read one gathered half at a time) -/

set_option maxHeartbeats 4000000 in
theorem in7_z
    (hO3 : W8 m ρ c (no_index (Proc.devRef .tc main_v78)) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
    (hO6 : W14 m ρ c (no_index (Proc.devRef .tc main_v122)) = val_main_v151 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))) :
    V15 m ρ c main_v137 = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  walk
  refine (congrArg₂ (fun a b => concatenate S500000x128 1 [⟨S500000x64, a⟩, ⟨S500000x64, b⟩]
      concatenates_S500000x64_S500000x64_S500000x128_d1)
    (?_ : _ = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
    (?_ : _ = val_main_v165 (F := Ideal) (m ((c : Thread nD τ).loc main_arg1)) (m ((c : Thread nD τ).loc main_arg2)) (m ((c : Thread nD τ).loc main_arg3)) (m ((c : Thread nD τ).loc main_arg7)) (m ((c : Thread nD τ).loc main_arg9)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)))).trans ?_
  · walk
    try rfl
  · walk
    try rfl
  · rfl

theorem in7_w1 :
    V15 m ρ c main_arg29 = (m ((c : Thread nD τ).loc main_arg29)) := by
  walk
  try rfl

theorem in7_b1 :
    V15 m ρ c main_v138 = shapeCast S1x64 (m ((c : Thread nD τ).loc main_arg30)) shapeCasts_S64_S1x64 := by
  walk
  try rfl

theorem in7_w2 :
    V15 m ρ c main_arg31 = (m ((c : Thread nD τ).loc main_arg31)) := by
  walk
  try rfl

theorem in7_b2 :
    V15 m ρ c main_v139 = shapeCast S1x1 (m ((c : Thread nD τ).loc main_arg32)) shapeCasts_S1_S1x1 := by
  walk
  try rfl

/-! ## The result: the decoder's column read as a vector -/

theorem result_of
    (hO7 : W16 m ρ c (no_index (Proc.devRef .tc main_v140)) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32))) :
    W17 m ρ c (Proc.devRef .tc main_v141) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) := by
  walk
  try rfl

end Cert.Sage.Walk

end
-- ==== Proof.Spec.lean ====
/-
  The dense stages of a mean-aggregation graph network, as functions of their operand arrays.

  Each stage is read one entry at a time over the extended reals.  A combine stage takes an aggregated
  neighbour matrix and the node's own matrix, multiplies each by its weight matrix, adds the two products
  and a bias row, and clamps at zero.  A linear head is one product plus a bias row.  The edge decoder is a
  hidden layer (product, bias row, clamp at zero) followed by a product with a one-column weight and a
  one-entry bias.  The bias is carried as a one-row matrix, the form in which a tiled stage receives it.

  The only algebra between the two programs' spellings of a combine stage is the order in which the bias
  and the second product are added: addition on the extended reals is commutative and associative with no
  finiteness assumption, so (A + B) + b = (A + b) + B for all values, infinite ones included.
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Mat (a b : ℕ) : Type := (⟨2, ![a, b]⟩ : Shape).Idx → EReal

/-- Entry (p, c) of the product of an M×K matrix with a K×N matrix. -/
def denseAt {M K N : ℕ} (x : Mat M K) (w : Mat K N) (p : Fin M) (c : Fin N) : EReal :=
  ∑ k : Fin K, x (ix2 p k) * w (ix2 k c)

/-- Entry (p, c) of a combine stage: max(agg·Wl + x·Wr + b, 0), the two products added first. -/
def sageAt {M : ℕ} (agg x : Mat M 128) (wl : Mat 128 128) (b : Mat 1 128) (wr : Mat 128 128)
    (p : Fin M) (c : Fin 128) : EReal :=
  max ((denseAt agg wl p c + denseAt x wr p c) + b (ix2 0 c)) 0

/-- The combine stage as an array. -/
def sage {M : ℕ} (agg x : Mat M 128) (wl : Mat 128 128) (b : Mat 1 128) (wr : Mat 128 128) : Mat M 128 :=
  fun i => sageAt agg x wl b wr (i 0) (i 1)

/-- Entry (p, c) of a linear head: x·W + b. -/
def linAt {M : ℕ} (x : Mat M 128) (w : Mat 128 64) (b : Mat 1 64) (p : Fin M) (c : Fin 64) : EReal :=
  denseAt x w p c + b (ix2 0 c)

/-- The linear head as an array. -/
def lin {M : ℕ} (x : Mat M 128) (w : Mat 128 64) (b : Mat 1 64) : Mat M 64 :=
  fun i => linAt x w b (i 0) (i 1)

/-- Entry (p, j) of the decoder's hidden layer: max(z·W1 + b1, 0). -/
def hidAt {M : ℕ} (z : Mat M 128) (w1 : Mat 128 64) (b1 : Mat 1 64) (p : Fin M) (j : Fin 64) : EReal :=
  max (denseAt z w1 p j + b1 (ix2 0 j)) 0

/-- Entry (p, u) of the edge decoder: hidden·W2 + b2, with W2 of one column. -/
def decAt {M : ℕ} (z : Mat M 128) (w1 : Mat 128 64) (b1 : Mat 1 64) (w2 : Mat 64 1) (b2 : Mat 1 1)
    (p : Fin M) (u : Fin 1) : EReal :=
  (∑ j : Fin 64, hidAt z w1 b1 p j * w2 (ix2 j u)) + b2 (ix2 0 u)

/-- The edge decoder as an array. -/
def dec {M : ℕ} (z : Mat M 128) (w1 : Mat 128 64) (b1 : Mat 1 64) (w2 : Mat 64 1) (b2 : Mat 1 1) : Mat M 1 :=
  fun i => decAt z w1 b1 w2 b2 (i 0) (i 1)

/-- The bias may be added before or after the second product. -/
theorem add_bias_comm (A B b : EReal) : (A + b) + B = (A + B) + b := add_right_comm A b B

/-- The three arrays read at an index built from its coordinates. -/
theorem sage_ix2 {M : ℕ} (agg x : Mat M 128) (wl : Mat 128 128) (b : Mat 1 128) (wr : Mat 128 128)
    (p : Fin M) (c : Fin 128) : sage agg x wl b wr (ix2 p c) = sageAt agg x wl b wr p c := rfl
theorem lin_ix2 {M : ℕ} (x : Mat M 128) (w : Mat 128 64) (b : Mat 1 64) (p : Fin M) (c : Fin 64) :
    lin x w b (ix2 p c) = linAt x w b p c := rfl
theorem dec_ix2 {M : ℕ} (z : Mat M 128) (w1 : Mat 128 64) (b1 : Mat 1 64) (w2 : Mat 64 1) (b2 : Mat 1 1)
    (p : Fin M) (u : Fin 1) : dec z w1 b1 w2 b2 (ix2 p u) = decAt z w1 b1 w2 b2 p u := rfl

end Cert.Sage

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.Payload.lean ====
/-
  The three kernel bodies read at one entry of the block they store.

  A body loads its blocks whole, narrows the matmul operands (the identity on extended reals), multiplies
  into a zero accumulator, adds, broadcasts the one-row bias over the block's rows and, in the combine and
  decoder bodies, clamps at zero.  Read at entry (p, c) each product is the textbook sum over the shared
  axis, the broadcast bias is the bias row's entry at column c, and the clamp is max(·, 0): the entry is the
  specification's entry function applied to the loaded blocks.
-/
import proofs.«153538_j79937931313419_1_alg».proof.Proof.Gen.KernelIdeal.Skeleton
import proofs.«153538_j79937931313419_1_alg».proof.Proof.Spec
import proofs.«153538_j79937931313419_1_alg».proof.Proof.LibPlainMatmul
import Idealize.ShloMosaic.Lib.ValueLayout
import Idealize.ShloMosaic.Lib.Pipeline.Value
import Idealize.ShloMosaic.PureOps.Ideal.Laws

noncomputable section

namespace Cert.Sage.Block

open Idealize.ShloMosaic Idealize.ShloMosaic.ValueIdx Cert.KernelIdeal Cert.KernelIdeal.Gen Cert.Sage
open scoped BigOperators

/-! ## The operand indices of the three dot records, coordinate by coordinate -/

abbrev dA := dot_S5000x128_S128x128_S5000x128_1_0_0_1_n_n
abbrev dB := dot_S5000x128_S128x64_S5000x64_1_0_0_1_n_n
abbrev dC := dot_S5000x64_S64x1_S5000x1_1_0_0_1_n_n

theorem dA_l0 (i : S5000x128.Idx) (q : dA.contr.Idx) : (dA.lhsIdx i q 0).val = (i 0).val := by
  unfold DotDims.lhsIdx
  rw [dif_neg (show ¬(0 : Fin S5000x128.rank) ∈ dA.lhsBatch by decide), dif_pos (show (0 : Fin S5000x128.rank) ∈ dA.lhsNonContracting by decide)]
  rfl
theorem dA_l1 (i : S5000x128.Idx) (q : dA.contr.Idx) : (dA.lhsIdx i q 1).val = (q ⟨0, by decide⟩).val :=
  dA.lhsIdx_val_of_single rfl i q
theorem dA_r0 (i : S5000x128.Idx) (q : dA.contr.Idx) : (dA.rhsIdx i q 0).val = (q ⟨0, by decide⟩).val :=
  dA.rhsIdx_val_of_single rfl i q
theorem dA_r1 (i : S5000x128.Idx) (q : dA.contr.Idx) : (dA.rhsIdx i q 1).val = (i 1).val := by
  unfold DotDims.rhsIdx
  rw [dif_neg (show ¬(1 : Fin S128x128.rank) ∈ dA.rhsBatch by decide), dif_pos (show (1 : Fin S128x128.rank) ∈ dA.rhsNonContracting by decide)]
  rfl

theorem dB_l0 (i : S5000x64.Idx) (q : dB.contr.Idx) : (dB.lhsIdx i q 0).val = (i 0).val := by
  unfold DotDims.lhsIdx
  rw [dif_neg (show ¬(0 : Fin S5000x128.rank) ∈ dB.lhsBatch by decide), dif_pos (show (0 : Fin S5000x128.rank) ∈ dB.lhsNonContracting by decide)]
  rfl
theorem dB_l1 (i : S5000x64.Idx) (q : dB.contr.Idx) : (dB.lhsIdx i q 1).val = (q ⟨0, by decide⟩).val :=
  dB.lhsIdx_val_of_single rfl i q
theorem dB_r0 (i : S5000x64.Idx) (q : dB.contr.Idx) : (dB.rhsIdx i q 0).val = (q ⟨0, by decide⟩).val :=
  dB.rhsIdx_val_of_single rfl i q
theorem dB_r1 (i : S5000x64.Idx) (q : dB.contr.Idx) : (dB.rhsIdx i q 1).val = (i 1).val := by
  unfold DotDims.rhsIdx
  rw [dif_neg (show ¬(1 : Fin S128x64.rank) ∈ dB.rhsBatch by decide), dif_pos (show (1 : Fin S128x64.rank) ∈ dB.rhsNonContracting by decide)]
  rfl

theorem dC_l0 (i : S5000x1.Idx) (q : dC.contr.Idx) : (dC.lhsIdx i q 0).val = (i 0).val := by
  unfold DotDims.lhsIdx
  rw [dif_neg (show ¬(0 : Fin S5000x64.rank) ∈ dC.lhsBatch by decide), dif_pos (show (0 : Fin S5000x64.rank) ∈ dC.lhsNonContracting by decide)]
  rfl
theorem dC_l1 (i : S5000x1.Idx) (q : dC.contr.Idx) : (dC.lhsIdx i q 1).val = (q ⟨0, by decide⟩).val :=
  dC.lhsIdx_val_of_single rfl i q
theorem dC_r0 (i : S5000x1.Idx) (q : dC.contr.Idx) : (dC.rhsIdx i q 0).val = (q ⟨0, by decide⟩).val :=
  dC.rhsIdx_val_of_single rfl i q
theorem dC_r1 (i : S5000x1.Idx) (q : dC.contr.Idx) : (dC.rhsIdx i q 1).val = (i 1).val := by
  unfold DotDims.rhsIdx
  rw [dif_neg (show ¬(1 : Fin S64x1.rank) ∈ dC.rhsBatch by decide), dif_pos (show (1 : Fin S64x1.rank) ∈ dC.rhsNonContracting by decide)]
  rfl

/-! ## The products of a body at an entry -/

/-- A 5000×128 block times a 128×128 weight, both narrowed, into zero: the sum over the 128 shared columns. -/
theorem mmA (x : FVec Ideal S5000x128 .bf16) (w : FVec Ideal S128x128 .bf16) (p : Fin 5000) (c : Fin 128) :
    matmul dA none x w (constant S5000x128 .f32 0x00000000#32) (ix2 p c) = ∑ k : Fin 128, x (ix2 p k) * w (ix2 k c) :=
  Cert.LibPlainMatmul.matmul_zero_ix2 dA none rfl rfl dA_l0 dA_l1 dA_r0 dA_r1 x w p c

/-- A 5000×128 block times a 128×64 weight. -/
theorem mmB (x : FVec Ideal S5000x128 .bf16) (w : FVec Ideal S128x64 .bf16) (p : Fin 5000) (c : Fin 64) :
    matmul dB none x w (constant S5000x64 .f32 0x00000000#32) (ix2 p c) = ∑ k : Fin 128, x (ix2 p k) * w (ix2 k c) :=
  Cert.LibPlainMatmul.matmul_zero_ix2 dB none rfl rfl dB_l0 dB_l1 dB_r0 dB_r1 x w p c

/-- A 5000×64 block times a 64×1 weight. -/
theorem mmC (x : FVec Ideal S5000x64 .bf16) (w : FVec Ideal S64x1 .bf16) (p : Fin 5000) (u : Fin 1) :
    matmul dC none x w (constant S5000x1 .f32 0x00000000#32) (ix2 p u) = ∑ j : Fin 64, x (ix2 p j) * w (ix2 j u) :=
  Cert.LibPlainMatmul.matmul_zero_ix2 dC none rfl rfl dC_l0 dC_l1 dC_r0 dC_r1 x w p u

/-- The zero the bodies clamp against. -/
theorem zero_word : (Scalar.ofBits (F := Ideal) .f32 0x00000000#32 : EReal) = 0 := Ideal.ofBits_zero_f32

/-! ## The bodies -/

/-- The combine body at entry (p, c) of its block. -/
theorem sage_block (v0 v3 : Vec Ideal S5000x128 .f32) (v6 v8 : Vec Ideal S128x128 .f32) (v10 : Vec Ideal S1x128 .f32)
    (p : Fin 5000) (c : Fin 128) :
    k0_pay1 (F := Ideal) v0 v3 v6 v8 v10 (ix2 p c) = sageAt (M := 5000) v0 v3 v6 v10 v8 p c := by
  unfold k0_pay1 sageAt denseAt
  rw [maximumf_apply, addf_apply, addf_apply, mmA, mmA, broadcast_apply, zero_word,
    broadcastTo_1b_ab_apply (a := 5000) (b := 128)]
  simp only [shapeCast_self, truncf_apply]

/-- The linear body at entry (p, c) of its block. -/
theorem lin_block (v0 : Vec Ideal S5000x128 .f32) (v3 : Vec Ideal S128x64 .f32) (v5 : Vec Ideal S1x64 .f32)
    (p : Fin 5000) (c : Fin 64) :
    k3_pay1 (F := Ideal) v0 v3 v5 (ix2 p c) = linAt (M := 5000) v0 v3 v5 p c := by
  unfold k3_pay1 linAt denseAt
  rw [addf_apply, mmB, broadcastTo_1b_ab_apply (a := 5000) (b := 64)]
  simp only [shapeCast_self, truncf_apply]

/-- The decoder body at entry (p, u) of its block. -/
theorem dec_block (v0 : Vec Ideal S5000x128 .f32) (v3 : Vec Ideal S128x64 .f32) (v5 : Vec Ideal S1x64 .f32)
    (v13 : Vec Ideal S64x1 .f32) (v15 : Vec Ideal S1x1 .f32) (p : Fin 5000) (u : Fin 1) :
    k7_pay1 (F := Ideal) v0 v3 v5 v13 v15 (ix2 p u) = decAt (M := 5000) v0 v3 v5 v13 v15 p u := by
  unfold k7_pay1 decAt hidAt denseAt
  rw [addf_apply, mmC, broadcastTo_1b_ab_apply (a := 5000) (b := 1)]
  refine congrArg₂ (· + ·) (Finset.sum_congr rfl fun j _ => ?_) ?_
  · rw [truncf_apply, maximumf_apply, addf_apply, mmB, broadcast_apply, zero_word,
      broadcastTo_1b_ab_apply (a := 5000) (b := 64)]
    simp only [shapeCast_self, truncf_apply]
  · simp only [shapeCast_self]

/-! ## The regions that share a body -/

theorem pay1_eq : @k1_pay1 = @k0_pay1 := rfl
theorem pay2_eq : @k2_pay1 = @k0_pay1 := rfl
theorem pay4_eq : @k4_pay1 = @k0_pay1 := rfl
theorem pay5_eq : @k5_pay1 = @k0_pay1 := rfl
theorem pay6_eq : @k6_pay1 = @k3_pay1 := rfl

end Cert.Sage.Block

end
-- ==== Proof.Regions.lean ====
/-
  From blocks to arrays: what each tiled stage leaves in its output array.

  Each of the eight tiled stages walks its row axis in steps of 5000 rows.  At step t it reads rows
  5000·t … 5000·t + 4999 of each row-tiled operand and the whole of each weight and bias operand, and writes
  rows 5000·t … 5000·t + 4999 of its output.  The stored block, read at entry (p, c), is the stage's entry
  function of the blocks; a row-tiled block's entry (p, k) is the operand's entry (5000·t + p, k), so the stored
  entry is the stage's entry function of the whole operands at row 5000·t + p.  The steps' row ranges tile the
  row axis exactly (200000 = 40·5000, 500000 = 100·5000): row r is written at step r / 5000.  Hence the output
  array after the stage is the stage's whole-array function of the operand arrays as the stage finds them.
-/
import proofs.«153538_j79937931313419_1_alg».proof.Proof.Gen.KernelIdeal.Frame
import proofs.«153538_j79937931313419_1_alg».proof.Proof.Spec
import proofs.«153538_j79937931313419_1_alg».proof.Proof.Payload
import Idealize.ShloMosaic.Lib.Pipeline.Value
import Idealize.ShloMosaic.Lib.ValueIdx

set_option maxRecDepth 16384

noncomputable section

namespace Cert.Sage.Regions

open Idealize.ShloMosaic Idealize.ShloMosaic.TcCoe Idealize.SL.Sem Idealize.ShloMosaic.ValueIdx
open Idealize.ShloMosaic.Pipeline (Dat)
open Cert.KernelIdeal Cert.KernelIdeal.Gen Cert.Sage
open scoped BigOperators

/-- The zero offsets of a whole-buffer access, as a constant function. -/
theorem zero_offsets : (![0, 0] : Fin 2 → Nat) = fun _ => 0 := funext fun a => by fin_cases a <;> rfl

/-! ## A stored entry as the stage's entry function of the whole operands -/

/-- The combine body at entry (p, c), when row p of the two row-tiled blocks is row r of the operands and the
    weight and bias blocks are the operands. -/
theorem sage_entry {M : ℕ} (agg x : Mat M 128) (wl : Mat 128 128) (b : Mat 1 128) (wr : Mat 128 128)
    (b0 b1 : Vec Ideal S5000x128 .f32) (b2 : Vec Ideal S128x128 .f32) (b3 : Vec Ideal S1x128 .f32)
    (b4 : Vec Ideal S128x128 .f32) (r : Fin M) (p : Fin 5000) (c : Fin 128)
    (h0 : ∀ k : Fin 128, b0 (ix2 p k) = agg (ix2 r k)) (h1 : ∀ k : Fin 128, b1 (ix2 p k) = x (ix2 r k))
    (h2 : b2 = wl) (h3 : b3 = b) (h4 : b4 = wr) :
    k0_pay1 (F := Ideal) b0 b1 b2 b4 b3 (ix2 p c) = sageAt agg x wl b wr r c := by
  subst h2 h3 h4
  rw [Cert.Sage.Block.sage_block]
  unfold sageAt denseAt
  simp only [h0, h1]

/-- The linear body at entry (p, c), likewise. -/
theorem lin_entry {M : ℕ} (x : Mat M 128) (w : Mat 128 64) (b : Mat 1 64)
    (b0 : Vec Ideal S5000x128 .f32) (b1 : Vec Ideal S128x64 .f32) (b2 : Vec Ideal S1x64 .f32)
    (r : Fin M) (p : Fin 5000) (c : Fin 64)
    (h0 : ∀ k : Fin 128, b0 (ix2 p k) = x (ix2 r k)) (h1 : b1 = w) (h2 : b2 = b) :
    k3_pay1 (F := Ideal) b0 b1 b2 (ix2 p c) = linAt x w b r c := by
  subst h1 h2
  rw [Cert.Sage.Block.lin_block]
  unfold linAt denseAt
  simp only [h0]

/-- The decoder body at entry (p, u), likewise. -/
theorem dec_entry {M : ℕ} (z : Mat M 128) (w1 : Mat 128 64) (b1 : Mat 1 64) (w2 : Mat 64 1) (b2 : Mat 1 1)
    (c0 : Vec Ideal S5000x128 .f32) (c1 : Vec Ideal S128x64 .f32) (c2 : Vec Ideal S1x64 .f32)
    (c3 : Vec Ideal S64x1 .f32) (c4 : Vec Ideal S1x1 .f32) (r : Fin M) (p : Fin 5000) (u : Fin 1)
    (h0 : ∀ k : Fin 128, c0 (ix2 p k) = z (ix2 r k)) (h1 : c1 = w1) (h2 : c2 = b1) (h3 : c3 = w2) (h4 : c4 = b2) :
    k7_pay1 (F := Ideal) c0 c1 c2 c3 c4 (ix2 p u) = decAt z w1 b1 w2 b2 r u := by
  subst h1 h2 h3 h4
  rw [Cert.Sage.Block.dec_block]
  unfold decAt hidAt denseAt
  simp only [h0]

/-! ## The stages, at the buffer contents each finds on entry -/

variable (V : (c : Dev nD) → (b : Ref sig .tc) → Buf (Elt Ideal) ((c : Thread nD τ).loc b))

/-! ## Stage 0: a combine stage on 200000 rows, 40 steps -/

/-- The index maps of stage 0 over its 40 steps: a row-tiled operand's block index is (t, 0), a whole operand's (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 400000 in
/-- Row p of operand 0's block at step t is row 5000·t + p of the operand. -/
theorem rows0_0 (c : Dev nD) (t : Fin cfg0.N) (p : Fin 5000) (k : Fin 128) (r : Fin 200000)
    (hr : r.val = 5000 * t.val + p.val) :
    (iblk0 V c 0 t : Vec Ideal S5000x128 .f32) (ix2 p k) = (V c main_v32 : S200000x128.Idx → EReal) (ix2 r k) := by
  obtain ⟨e0_0, e0_1, e1_0, e1_1, e2_0, e2_1, e3_0, e3_1, e4_0, e4_1, e5_0, e5_1⟩ := index_facts0 t
  unfold iblk0
  rw [View.read_apply]
  show V c main_v32 _ = _
  congr 1
  funext a
  apply Fin.ext
  match a with
  | ⟨0, _⟩ => show win0_0.index t (0 : Fin 2) * 5000 + 1 * p.val = r.val; rw [e0_0, hr]; omega
  | ⟨1, _⟩ => show win0_0.index t (1 : Fin 2) * 128 + 1 * k.val = k.val; rw [e0_1]; omega

set_option maxHeartbeats 400000 in
/-- Row p of operand 1's block at step t is row 5000·t + p of the operand. -/
theorem rows0_1 (c : Dev nD) (t : Fin cfg0.N) (p : Fin 5000) (k : Fin 128) (r : Fin 200000)
    (hr : r.val = 5000 * t.val + p.val) :
    (iblk0 V c 1 t : Vec Ideal S5000x128 .f32) (ix2 p k) = (V c main_v13 : S200000x128.Idx → EReal) (ix2 r k) := by
  obtain ⟨e0_0, e0_1, e1_0, e1_1, e2_0, e2_1, e3_0, e3_1, e4_0, e4_1, e5_0, e5_1⟩ := index_facts0 t
  unfold iblk0
  rw [View.read_apply]
  show V c main_v13 _ = _
  congr 1
  funext a
  apply Fin.ext
  match a with
  | ⟨0, _⟩ => show win0_1.index t (0 : Fin 2) * 5000 + 1 * p.val = r.val; rw [e1_0, hr]; omega
  | ⟨1, _⟩ => show win0_1.index t (1 : Fin 2) * 128 + 1 * k.val = k.val; rw [e1_1]; omega

set_option maxHeartbeats 400000 in
/-- Operand 2's block at every step is the whole operand. -/
theorem whole0_2 (c : Dev nD) (t : Fin cfg0.N) :
    (iblk0 V c 2 t : Vec Ideal S128x128 .f32) = (V c main_arg10 : S128x128.Idx → EReal) := by
  obtain ⟨e0_0, e0_1, e1_0, e1_1, e2_0, e2_1, e3_0, e3_1, e4_0, e4_1, e5_0, e5_1⟩ := index_facts0 t
  unfold iblk0
  funext y
  rw [View.read_apply]
  show V c main_arg10 _ = _
  congr 1
  funext a
  apply Fin.ext
  match a with
  | ⟨0, _⟩ => show win0_2.index t (0 : Fin 2) * 128 + 1 * (y 0).val = (y 0).val; rw [e2_0]; omega
  | ⟨1, _⟩ => show win0_2.index t (1 : Fin 2) * 128 + 1 * (y 1).val = (y 1).val; rw [e2_1]; omega

set_option maxHeartbeats 400000 in
/-- Operand 3's block at every step is the whole operand. -/
theorem whole0_3 (c : Dev nD) (t : Fin cfg0.N) :
    (iblk0 V c 3 t : Vec Ideal S1x128 .f32) = (V c main_v33 : S1x128.Idx → EReal) := by
  obtain ⟨e0_0, e0_1, e1_0, e1_1, e2_0, e2_1, e3_0, e3_1, e4_0, e4_1, e5_0, e5_1⟩ := index_facts0 t
  unfold iblk0
  funext y
  rw [View.read_apply]
  show V c main_v33 _ = _
  congr 1
  funext a
  apply Fin.ext
  match a with
  | ⟨0, _⟩ => show win0_3.index t (0 : Fin 2) * 1 + 1 * (y 0).val = (y 0).val; rw [e3_0]; omega
  | ⟨1, _⟩ => show win0_3.index t (1 : Fin 2) * 128 + 1 * (y 1).val = (y 1).val; rw [e3_1]; omega

set_option maxHeartbeats 400000 in
/-- Operand 4's block at every step is the whole operand. -/
theorem whole0_4 (c : Dev nD) (t : Fin cfg0.N) :
    (iblk0 V c 4 t : Vec Ideal S128x128 .f32) = (V c main_arg12 : S128x128.Idx → EReal) := by
  obtain ⟨e0_0, e0_1, e1_0, e1_1, e2_0, e2_1, e3_0, e3_1, e4_0, e4_1, e5_0, e5_1⟩ := index_facts0 t
  unfold iblk0
  funext y
  rw [View.read_apply]
  show V c main_arg12 _ = _
  congr 1
  funext a
  apply Fin.ext
  match a with
  | ⟨0, _⟩ => show win0_4.index t (0 : Fin 2) * 128 + 1 * (y 0).val = (y 0).val; rw [e4_0]; omega
  | ⟨1, _⟩ => show win0_4.index t (1 : Fin 2) * 128 + 1 * (y 1).val = (y 1).val; rw [e4_1]; omega

set_option maxHeartbeats 400000 in
/-- An entry of the output array lies in step t's block iff each coordinate lies in the block's range on its axis. -/
theorem mem_blk0 (t : Fin cfg0.N) (i : S200000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

set_option maxHeartbeats 400000 in
/-- Every entry of the output array is written: row r at step r / 5000. -/
theorem cover0 (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 40 := N_0
  obtain ⟨t, ht⟩ : ∃ t : Fin cfg0.N, t.val = (i 0).val / 5000 := ⟨⟨(i 0).val / 5000, by rw [hN]; omega⟩, rfl⟩
  obtain ⟨e0_0, e0_1, e1_0, e1_1, e2_0, e2_1, e3_0, e3_1, e4_0, e4_1, e5_0, e5_1⟩ := index_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e5_0, ht]; omega
  | ⟨1, _⟩ => show win0_5.index t (1 : Fin 2) * 128 ≤ (i 1).val ∧ (i 1).val < win0_5.index t (1 : Fin 2) * 128 + 128; rw [e5_1]; omega

set_option maxHeartbeats 400000 in
/-- Step t of stage 0 writes rows 5000·t … 5000·t + 4999 of the combine stage of the operand arrays. -/
theorem flushed0_eq (c : Dev nD) (t : Fin cfg0.N) :
    (dat0 (F := Ideal) V c).flushed 5 t
      = ((cfg0.win 5).blk t).view.read (Elt Ideal)
          (sage (M := 200000) (V c main_v32) (V c main_v13) (V c main_arg10) (V c main_v33) (V c main_arg12)) := by
  show (cfg0.win 5).cut (grid0.coords t) ((dat0 V c).after 5 t) = _
  rw [after0_5]
  unfold out0_5
  rw [View.canon_unit_zero zero_offsets]
  simp only [View.ld_unit_zero (S := S5000x128) zero_offsets,
    View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have hN : cfg0.N = 40 := N_0
  have ht : t.val < cfg0.N := t.isLt
  obtain ⟨r, hr⟩ : ∃ r : Fin 200000, r.val = 5000 * t.val + p.val := ⟨⟨5000 * t.val + p.val, by omega⟩, rfl⟩
  obtain ⟨e0_0, e0_1, e1_0, e1_1, e2_0, e2_1, e3_0, e3_1, e4_0, e4_1, e5_0, e5_1⟩ := index_facts0 t
  have hemb : ((cfg0.win 5).blk t).view.emb (ix2 p q) = (ix2 r q : S200000x128.Idx) := by
    funext a
    apply Fin.ext
    match a with
    | ⟨0, _⟩ => show win0_5.index t (0 : Fin 2) * 5000 + 1 * p.val = r.val; rw [e5_0, hr]; omega
    | ⟨1, _⟩ => show win0_5.index t (1 : Fin 2) * 128 + 1 * q.val = q.val; rw [e5_1]; omega
  show k0_pay1 (F := Ideal) (iblk0 V c 0 t) (iblk0 V c 1 t) (iblk0 V c 2 t) (iblk0 V c 4 t) (iblk0 V c 3 t) (ix2 p q)
    = sage (M := 200000) (V c main_v32) (V c main_v13) (V c main_arg10) (V c main_v33) (V c main_arg12)
        (((cfg0.win 5).blk t).view.emb (ix2 p q))
  rw [hemb]
  exact sage_entry (M := 200000) (V c main_v32) (V c main_v13) (V c main_arg10) (V c main_v33) (V c main_arg12)
    (iblk0 V c 0 t) (iblk0 V c 1 t) (iblk0 V c 2 t) (iblk0 V c 3 t) (iblk0 V c 4 t) r p q
    (fun k => rows0_0 V c t p k r hr) (fun k => rows0_1 V c t p k r hr) (whole0_2 V c t) (whole0_3 V c t) (whole0_4 V c t)

set_option maxHeartbeats 400000 in
/-- The output array of stage 0 after its 40 steps is the combine stage of the operand arrays as the stage finds them. -/
theorem region0_value (c : Dev nD) :
    (dat0 (F := Ideal) V c).arrAt 5 cfg0.N
      = Cert.Sage.sage (M := 200000) (V c main_v32) (V c main_v13) (V c main_arg10) (V c main_v33) (V c main_arg12) :=
  (dat0 (F := Ideal) V c).arrAt_eq_of_cover 5 _ (fun t _ => flushed0_eq V c t) cover0

/-! ## Stage 1: a combine stage on 500000 rows, 100 steps -/

/-- The index maps of stage 1 over its 100 steps: a row-tiled operand's block index is (t, 0), a whole operand's (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 400000 in
/-- Row p of operand 0's block at step t is row 5000·t + p of the operand. -/
theorem rows1_0 (c : Dev nD) (t : Fin cfg1.N) (p : Fin 5000) (k : Fin 128) (r : Fin 500000)
    (hr : r.val = 5000 * t.val + p.val) :
    (iblk1 V c 0 t : Vec Ideal S5000x128 .f32) (ix2 p k) = (V c main_v53 : S500000x128.Idx → EReal) (ix2 r k) := by
  obtain ⟨e0_0, e0_1, e1_0, e1_1, e2_0, e2_1, e3_0, e3_1, e4_0, e4_1, e5_0, e5_1⟩ := index_facts1 t
  unfold iblk1
  rw [View.read_apply]
  show V c main_v53 _ = _
  congr 1
  funext a
  apply Fin.ext
  match a with
  | ⟨0, _⟩ => show win1_0.index t (0 : Fin 2) * 5000 + 1 * p.val = r.val; rw [e0_0, hr]; omega
  | ⟨1, _⟩ => show win1_0.index t (1 : Fin 2) * 128 + 1 * k.val = k.val; rw [e0_1]; omega

set_option maxHeartbeats 400000 in
/-- Row p of operand 1's block at step t is row 5000·t + p of the operand. -/
theorem rows1_1 (c : Dev nD) (t : Fin cfg1.N) (p : Fin 5000) (k : Fin 128) (r : Fin 500000)
    (hr : r.val = 5000 * t.val + p.val) :
    (iblk1 V c 1 t : Vec Ideal S5000x128 .f32) (ix2 p k) = (V c main_v6 : S500000x128.Idx → EReal) (ix2 r k) := by
  obtain ⟨e0_0, e0_1, e1_0, e1_1, e2_0, e2_1, e3_0, e3_1, e4_0, e4_1, e5_0, e5_1⟩ := index_facts1 t
  unfold iblk1
  rw [View.read_apply]
  show V c main_v6 _ = _
  congr 1
  funext a
  apply Fin.ext
  match a with
  | ⟨0, _⟩ => show win1_1.index t (0 : Fin 2) * 5000 + 1 * p.val = r.val; rw [e1_0, hr]; omega
  | ⟨1, _⟩ => show win1_1.index t (1 : Fin 2) * 128 + 1 * k.val = k.val; rw [e1_1]; omega

set_option maxHeartbeats 400000 in
/-- Operand 2's block at every step is the whole operand. -/
theorem whole1_2 (c : Dev nD) (t : Fin cfg1.N) :
    (iblk1 V c 2 t : Vec Ideal S128x128 .f32) = (V c main_arg13 : S128x128.Idx → EReal) := by
  obtain ⟨e0_0, e0_1, e1_0, e1_1, e2_0, e2_1, e3_0, e3_1, e4_0, e4_1, e5_0, e5_1⟩ := index_facts1 t
  unfold iblk1
  funext y
  rw [View.read_apply]
  show V c main_arg13 _ = _
  congr 1
  funext a
  apply Fin.ext
  match a with
  | ⟨0, _⟩ => show win1_2.index t (0 : Fin 2) * 128 + 1 * (y 0).val = (y 0).val; rw [e2_0]; omega
  | ⟨1, _⟩ => show win1_2.index t (1 : Fin 2) * 128 + 1 * (y 1).val = (y 1).val; rw [e2_1]; omega

set_option maxHeartbeats 400000 in
/-- Operand 3's block at every step is the whole operand. -/
theorem whole1_3 (c : Dev nD) (t : Fin cfg1.N) :
    (iblk1 V c 3 t : Vec Ideal S1x128 .f32) = (V c main_v54 : S1x128.Idx → EReal) := by
  obtain ⟨e0_0, e0_1, e1_0, e1_1, e2_0, e2_1, e3_0, e3_1, e4_0, e4_1, e5_0, e5_1⟩ := index_facts1 t
  unfold iblk1
  funext y
  rw [View.read_apply]
  show V c main_v54 _ = _
  congr 1
  funext a
  apply Fin.ext
  match a with
  | ⟨0, _⟩ => show win1_3.index t (0 : Fin 2) * 1 + 1 * (y 0).val = (y 0).val; rw [e3_0]; omega
  | ⟨1, _⟩ => show win1_3.index t (1 : Fin 2) * 128 + 1 * (y 1).val = (y 1).val; rw [e3_1]; omega

set_option maxHeartbeats 400000 in
/-- Operand 4's block at every step is the whole operand. -/
theorem whole1_4 (c : Dev nD) (t : Fin cfg1.N) :
    (iblk1 V c 4 t : Vec Ideal S128x128 .f32) = (V c main_arg15 : S128x128.Idx → EReal) := by
  obtain ⟨e0_0, e0_1, e1_0, e1_1, e2_0, e2_1, e3_0, e3_1, e4_0, e4_1, e5_0, e5_1⟩ := index_facts1 t
  unfold iblk1
  funext y
  rw [View.read_apply]
  show V c main_arg15 _ = _
  congr 1
  funext a
  apply Fin.ext
  match a with
  | ⟨0, _⟩ => show win1_4.index t (0 : Fin 2) * 128 + 1 * (y 0).val = (y 0).val; rw [e4_0]; omega
  | ⟨1, _⟩ => show win1_4.index t (1 : Fin 2) * 128 + 1 * (y 1).val = (y 1).val; rw [e4_1]; omega

set_option maxHeartbeats 400000 in
/-- An entry of the output array lies in step t's block iff each coordinate lies in the block's range on its axis. -/
theorem mem_blk1 (t : Fin cfg1.N) (i : S500000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v55).slice (win1_5.rect t)).set ↔ _
  rw [View.set_slice_whole, Rect.mem_set_unit]
  exact Iff.rfl

set_option maxHeartbeats 400000 in
/-- Every entry of the output array is written: row r at step r / 5000. -/
theorem cover1 (i : S500000x128.Idx) :
    ∃ t : Fin cfg1.N, (cfg1.win 5).flush t = true ∧ i ∈ ((cfg1.win 5).blk t).view.set := by
  have hi0 : (i 0).val < 500000 := (i 0).isLt
  have hi1 : (i 1).val < 128 := (i 1).isLt
  have hN : cfg1.N = 100 := N_1
  obtain ⟨t, ht⟩ : ∃ t : Fin cfg1.N, t.val = (i 0).val / 5000 := ⟨⟨(i 0).val / 5000, by rw [hN]; omega⟩, rfl⟩
  obtain ⟨e0_0, e0_1, e1_0, e1_1, e2_0, e2_1, e3_0, e3_1, e4_0, e4_1, e5_0, e5_1⟩ := index_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e5_0, ht]; omega
  | ⟨1, _⟩ => show win1_5.index t (1 : Fin 2) * 128 ≤ (i 1).val ∧ (i 1).val < win1_5.index t (1 : Fin 2) * 128 + 128; rw [e5_1]; omega

set_option maxHeartbeats 400000 in
/-- Step t of stage 1 writes rows 5000·t … 5000·t + 4999 of the combine stage of the operand arrays. -/
theorem flushed1_eq (c : Dev nD) (t : Fin cfg1.N) :
    (dat1 (F := Ideal) V c).flushed 5 t
      = ((cfg1.win 5).blk t).view.read (Elt Ideal)
          (sage (M := 500000) (V c main_v53) (V c main_v6) (V c main_arg13) (V c main_v54) (V c main_arg15)) := by
  show (cfg1.win 5).cut (grid1.coords t) ((dat1 V c).after 5 t) = _
  rw [after1_5]
  unfold out1_5
  rw [View.canon_unit_zero zero_offsets]
  simp only [View.ld_unit_zero (S := S5000x128) zero_offsets,
    View.ld_unit_zero (S := S128x128) zero_offsets,
    View.ld_unit_zero (S := S1x128) zero_offsets]
  rw [Cert.Sage.Block.pay1_eq]
  funext j
  obtain ⟨p, q, rfl⟩ : ∃ (p : Fin 5000) (q : Fin 128), j = ix2 p q := ⟨j 0, j 1, eq_ix2 j⟩
  have hN : cfg1.N = 100 := N_1
  have ht : t.val < cfg1.N := t.isLt
  obtain ⟨r, hr⟩ : ∃ r : Fin 500000, r.val = 5000 * t.val + p.val := ⟨⟨5000 * t.val + p.val, by omega⟩, rfl⟩
  obtain ⟨e0_0, e0_1, e1_0, e1_1, e2_0, e2_1, e3_0, e3_1, e4_0, e4_1, e5_0, e5_1⟩ := index_facts1 t
  have hemb : ((cfg1.win 5).blk t).view.emb (ix2 p q) = (ix2 r q : S500000x128.Idx) := by
    funext a
    apply Fin.ext
    match a with
    | ⟨0, _⟩ => show win1_5.index t (0 : Fin 2) * 5000 + 1 * p.val = r.val; rw [e5_0, hr]; omega
    | ⟨1, _⟩ => show win1_5.index t (1 : Fin 2) * 128 + 1 * q.val = q.val; rw [e5_1]; omega
  show k0_pay1 (F := Ideal) (iblk1 V c 0 t) (iblk1 V c 1 t) (iblk1 V c 2 t) (iblk1 V c 4 t) (iblk1 V c 3 t) (ix2 p q)
    = sage (M := 500000) (V c main_v53) (V c main_v6) (V c main_arg13) (V c main_v54) (V c main_arg15)
        (((cfg1.win 5).blk t).view.emb (ix2 p q))
  rw [hemb]
  exact sage_entry (M := 500000) (V c main_v53) (V c main_v6) (V c main_arg13) (V c main_v54) (V c main_arg15)
    (iblk1 V c 0 t) (iblk1 V c 1 t) (iblk1 V c 2 t) (iblk1 V c 3 t) (iblk1 V c 4 t) r p q
    (fun k => rows1_0 V c t p k r hr) (fun k => rows1_1 V c t p k r hr) (whole1_2 V c t) (whole1_3 V c t) (whole1_4 V c t)

set_option maxHeartbeats 400000 in
/-- The output array of stage 1 after its 100 steps is the combine stage of the operand arrays as the stage finds them. -/
theorem region1_value (c : Dev nD) :
    (dat1 (F := Ideal) V c).arrAt 5 cfg1.N
      = Cert.Sage.sage (M := 500000) (V c main_v53) (V c main_v6) (V c main_arg13) (V c main_v54) (V c main_arg15) :=
  (dat1 (F := Ideal) V c).arrAt_eq_of_cover 5 _ (fun t _ => flushed1_eq V c t) cover1

/-! ## Stage 2: a combine stage on 500000 rows, 100 steps -/

/-- The index maps of stage 2 over its 100 steps: a row-tiled operand's block index is (t, 0), a whole operand's (0, 0). -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 400000 in
/-- Row p of operand 0's block at step t is row 5000·t + p of the operand. -/
theorem rows2_0 (c : Dev nD) (t : Fin cfg2.N) (p : Fin 5000) (k : Fin 128) (r : Fin 500000)
    (hr : r.val = 5000 * t.val + p.val) :
    (iblk2 V c 0 t : Vec Ideal S5000x128 .f32) (ix2 p k) = (V c main_v74 : S500000x128.Idx → EReal) (ix2 r k) := by
  obtain ⟨e0_0, e0_1, e1_0, e1_1, e2_0, e2_1, e3_0, e3_1, e4_0, e4_1, e5_0, e5_1⟩ := index_facts2 t
  unfold iblk2
  rw [View.read_apply]
  show V c main_v74 _ = _
  congr 1
  funext a
  apply Fin.ext
  match a with
  | ⟨0, _⟩ => show win2_0.index t (0 : Fin 2) * 5000 + 1 * p.val = r.val; rw [e0_0, hr]; omega
  | ⟨1, _⟩ => show win2_0.index t (1 : Fin 2) * 128 + 1 * k.val = k.val; rw [e0_1]; omega

set_option maxHeartbeats 400000 in
/-- Row p of operand 1's block at step t is row 5000·t + p of the operand. -/
theorem rows2_1 (c : Dev nD) (t : Fin cfg2.N) (p : Fin 5000) (k : Fin 128) (r : Fin 500000)
    (hr : r.val = 5000 * t.val + p.val) :
    (iblk2 V c 1 t : Vec Ideal S5000x128 .f32) (ix2 p k) = (V c main_v55 : S500000x128.Idx → EReal) (ix2 r k) := by
  obtain ⟨e0_0, e0_1, e1_0, e1_1, e2_0, e2_1, e3_0, e3_1, e4_0, e4_1, e5_0, e5_1⟩ := index_facts2 t
  unfold iblk2
  rw [View.read_apply]
  show V c main_v55 _ = _
  congr 1
  funext a
  apply Fin.ext
  match a with
  | ⟨0, _⟩ => show win2_1.index t (0 : Fin 2) * 5000 + 1 * p.val = r.val; rw [e1_0, hr]; omega
  | ⟨1, _⟩ => show win2_1.index t (1 : Fin 2) * 128 + 1 * k.val = k.val; rw [e1_1]; omega

set_option maxHeartbeats 400000 in
/-- Operand 2's block at every step is the whole operand. -/
theorem whole2_2 (c : Dev nD) (t : Fin cfg2.N) :
    (iblk2 V c 2 t : Vec Ideal S128x128 .f32) = (V c main_arg16 : S128x128.Idx → EReal) := by
  obtain ⟨e0_0, e0_1, e1_0, e1_1, e2_0, e2_1, e3_0, e3_1, e4_0, e4_1, e5_0, e5_1⟩ := index_facts2 t
  unfold iblk2
  funext y
  rw [View.read_apply]
  show V c main_arg16 _ = _
  congr 1
  funext a
  apply Fin.ext
  match a with
  | ⟨0, _⟩ => show win2_2.index t (0 : Fin 2) * 128 + 1 * (y 0).val = (y 0).val; rw [e2_0]; omega
  | ⟨1, _⟩ => show win2_2.index t (1 : Fin 2) * 128 + 1 * (y 1).val = (y 1).val; rw [e2_1]; omega

set_option maxHeartbeats 400000 in
/-- Operand 3's block at every step is the whole operand. -/
theorem whole2_3 (c : Dev nD) (t : Fin cfg2.N) :
    (iblk2 V c 3 t : Vec Ideal S1x128 .f32) = (V c main_v75 : S1x128.Idx → EReal) := by
  obtain ⟨e0_0, e0_1, e1_0, e1_1, e2_0, e2_1, e3_0, e3_1, e4_0, e4_1, e5_0, e5_1⟩ := index_facts2 t
  unfold iblk2
  funext y
  rw [View.read_apply]
  show V c main_v75 _ = _
  congr 1
  funext a
  apply Fin.ext
  match a with
  | ⟨0, _⟩ => show win2_3.index t (0 : Fin 2) * 1 + 1 * (y 0).val = (y 0).val; rw [e3_0]; omega
  | ⟨1, _⟩ => show win2_3.index t (1 : Fin 2) * 128 + 1 * (y 1).val = (y 1).val; rw [e3_1]; omega

set_option maxHeartbeats 400000 in
/-- Operand 4's block at every step is the whole operand. -/
theorem whole2_4 (c : Dev nD) (t : Fin cfg2.N) :
    (iblk2 V c 4 t : Vec Ideal S128x128 .f32) = (V c main_arg18 : S128x128.Idx → EReal) := by
  obtain ⟨e0_0, e0_1, e1_0, e1_1, e2_0, e2_1, e3_0, e3_1, e4_0, e4_1, e5_0, e5_1⟩ := index_facts2 t
  unfold iblk2
  funext y
  rw [View.read_apply]
  show V c main_arg18 _ = _
  congr 1
  funext a
  apply Fin.ext
  match a with
  | ⟨0, _⟩ => show win2_4.index t (0 : Fin 2) * 128 + 1 * (y 0).val = (y 0).val; rw [e4_0]; omega
  | ⟨1, _⟩ => show win2_4.index t (1 : Fin 2) * 128 + 1 * (y 1).val = (y 1).val; rw [e4_1]; omega

set_option maxHeartbeats 400000 in
/-- An entry of the output array lies in step t's block iff each coordinate lies in the block's range on its axis. -/
theorem mem_blk2 (t : Fin cfg2.N) (i : S500000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v76).slice (win2_5.rect t)).set ↔ _
  rw [View.set_slice_whole, Rect.mem_set_unit]
  exact Iff.rfl

set_option maxHeartbeats 400000 in
/-- Every entry of the output array is written: row r at step r / 5000. -/
theorem cover2 (i : S500000x128.Idx) :
    ∃ t : Fin cfg2.N, (cfg2.win 5).flush t = true ∧ i ∈ ((cfg2.win 5).blk t).view.set := by
  have hi0 : (i 0).val < 500000 := (i 0).isLt
  have hi1 : (i 1).val < 128 := (i 1).isLt
  have hN : cfg2.N = 100 := N_2
  obtain ⟨t, ht⟩ : ∃ t : Fin cfg2.N, t.val = (i 0).val / 5000 := ⟨⟨(i 0).val / 5000, by rw [hN]; omega⟩, rfl⟩
  obtain ⟨e0_0, e0_1, e1_0, e1_1, e2_0, e2_1, e3_0, e3_1, e4_0, e4_1, e5_0, e5_1⟩ := index_facts2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; rw [e5_0, ht]; omega
  | ⟨1, _⟩ => show win2_5.index t (1 : Fin 2) * 128 ≤ (i 1).val ∧ (i 1).val < win2_5.index t (1 : Fin 2) * 128 + 128; rw [e5_1]; omega

set_option maxHeartbeats 400000 in
/-- Step t of stage 2 writes rows 5000·t … 5000·t + 4999 of the combine stage of the operand arrays. -/
theorem flushed2_eq (c : Dev nD) (t : Fin cfg2.N) :
    (dat2 (F := Ideal) V c).flushed 5 t
      = ((cfg2.win 5).blk t).view.read (Elt Ideal)
          (sage (M := 500000) (V c main_v74) (V c main_v55) (V c main_arg16) (V c main_v75) (V c main_arg18)) := by
  show (cfg2.win 5).cut (grid2.coords t) ((dat2 V c).after 5 t) = _
  rw [after2_5]
  unfold out2_5
  rw [View.canon_unit_zero zero_offsets]
  simp only [View.ld_unit_zero (S := S5000x128) zero_offsets,
    View.ld_unit_zero (S := S128x128) zero_offsets,
    View.ld_unit_zero (S := S1x128) zero_offsets]
  rw [Cert.Sage.Block.pay2_eq]
  funext j
  obtain ⟨p, q, rfl⟩ : ∃ (p : Fin 5000) (q : Fin 128), j = ix2 p q := ⟨j 0, j 1, eq_ix2 j⟩
  have hN : cfg2.N = 100 := N_2
  have ht : t.val < cfg2.N := t.isLt
  obtain ⟨r, hr⟩ : ∃ r : Fin 500000, r.val = 5000 * t.val + p.val := ⟨⟨5000 * t.val + p.val, by omega⟩, rfl⟩
  obtain ⟨e0_0, e0_1, e1_0, e1_1, e2_0, e2_1, e3_0, e3_1, e4_0, e4_1, e5_0, e5_1⟩ := index_facts2 t
  have hemb : ((cfg2.win 5).blk t).view.emb (ix2 p q) = (ix2 r q : S500000x128.Idx) := by
    funext a
    apply Fin.ext
    match a with
    | ⟨0, _⟩ => show win2_5.index t (0 : Fin 2) * 5000 + 1 * p.val = r.val; rw [e5_0, hr]; omega
    | ⟨1, _⟩ => show win2_5.index t (1 : Fin 2) * 128 + 1 * q.val = q.val; rw [e5_1]; omega
  show k0_pay1 (F := Ideal) (iblk2 V c 0 t) (iblk2 V c 1 t) (iblk2 V c 2 t) (iblk2 V c 4 t) (iblk2 V c 3 t) (ix2 p q)
    = sage (M := 500000) (V c main_v74) (V c main_v55) (V c main_arg16) (V c main_v75) (V c main_arg18)
        (((cfg2.win 5).blk t).view.emb (ix2 p q))
  rw [hemb]
  exact sage_entry (M := 500000) (V c main_v74) (V c main_v55) (V c main_arg16) (V c main_v75) (V c main_arg18)
    (iblk2 V c 0 t) (iblk2 V c 1 t) (iblk2 V c 2 t) (iblk2 V c 3 t) (iblk2 V c 4 t) r p q
    (fun k => rows2_0 V c t p k r hr) (fun k => rows2_1 V c t p k r hr) (whole2_2 V c t) (whole2_3 V c t) (whole2_4 V c t)

set_option maxHeartbeats 400000 in
/-- The output array of stage 2 after its 100 steps is the combine stage of the operand arrays as the stage finds them. -/
theorem region2_value (c : Dev nD) :
    (dat2 (F := Ideal) V c).arrAt 5 cfg2.N
      = Cert.Sage.sage (M := 500000) (V c main_v74) (V c main_v55) (V c main_arg16) (V c main_v75) (V c main_arg18) :=
  (dat2 (F := Ideal) V c).arrAt_eq_of_cover 5 _ (fun t _ => flushed2_eq V c t) cover2

/-! ## Stage 3: a linear stage on 500000 rows, 100 steps -/

/-- The index maps of stage 3 over its 100 steps: a row-tiled operand's block index is (t, 0), a whole operand's (0, 0). -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 400000 in
/-- Row p of operand 0's block at step t is row 5000·t + p of the operand. -/
theorem rows3_0 (c : Dev nD) (t : Fin cfg3.N) (p : Fin 5000) (k : Fin 128) (r : Fin 500000)
    (hr : r.val = 5000 * t.val + p.val) :
    (iblk3 V c 0 t : Vec Ideal S5000x128 .f32) (ix2 p k) = (V c main_v76 : S500000x128.Idx → EReal) (ix2 r k) := by
  obtain ⟨e0_0, e0_1, e1_0, e1_1, e2_0, e2_1, e3_0, e3_1⟩ := index_facts3 t
  unfold iblk3
  rw [View.read_apply]
  show V c main_v76 _ = _
  congr 1
  funext a
  apply Fin.ext
  match a with
  | ⟨0, _⟩ => show win3_0.index t (0 : Fin 2) * 5000 + 1 * p.val = r.val; rw [e0_0, hr]; omega
  | ⟨1, _⟩ => show win3_0.index t (1 : Fin 2) * 128 + 1 * k.val = k.val; rw [e0_1]; omega

set_option maxHeartbeats 400000 in
/-- Operand 1's block at every step is the whole operand. -/
theorem whole3_1 (c : Dev nD) (t : Fin cfg3.N) :
    (iblk3 V c 1 t : Vec Ideal S128x64 .f32) = (V c main_arg19 : S128x64.Idx → EReal) := by
  obtain ⟨e0_0, e0_1, e1_0, e1_1, e2_0, e2_1, e3_0, e3_1⟩ := index_facts3 t
  unfold iblk3
  funext y
  rw [View.read_apply]
  show V c main_arg19 _ = _
  congr 1
  funext a
  apply Fin.ext
  match a with
  | ⟨0, _⟩ => show win3_1.index t (0 : Fin 2) * 128 + 1 * (y 0).val = (y 0).val; rw [e1_0]; omega
  | ⟨1, _⟩ => show win3_1.index t (1 : Fin 2) * 64 + 1 * (y 1).val = (y 1).val; rw [e1_1]; omega

set_option maxHeartbeats 400000 in
/-- Operand 2's block at every step is the whole operand. -/
theorem whole3_2 (c : Dev nD) (t : Fin cfg3.N) :
    (iblk3 V c 2 t : Vec Ideal S1x64 .f32) = (V c main_v77 : S1x64.Idx → EReal) := by
  obtain ⟨e0_0, e0_1, e1_0, e1_1, e2_0, e2_1, e3_0, e3_1⟩ := index_facts3 t
  unfold iblk3
  funext y
  rw [View.read_apply]
  show V c main_v77 _ = _
  congr 1
  funext a
  apply Fin.ext
  match a with
  | ⟨0, _⟩ => show win3_2.index t (0 : Fin 2) * 1 + 1 * (y 0).val = (y 0).val; rw [e2_0]; omega
  | ⟨1, _⟩ => show win3_2.index t (1 : Fin 2) * 64 + 1 * (y 1).val = (y 1).val; rw [e2_1]; omega

set_option maxHeartbeats 400000 in
/-- An entry of the output array lies in step t's block iff each coordinate lies in the block's range on its axis. -/
theorem mem_blk3 (t : Fin cfg3.N) (i : S500000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v78).slice (win3_3.rect t)).set ↔ _
  rw [View.set_slice_whole, Rect.mem_set_unit]
  exact Iff.rfl

set_option maxHeartbeats 400000 in
/-- Every entry of the output array is written: row r at step r / 5000. -/
theorem cover3 (i : S500000x64.Idx) :
    ∃ t : Fin cfg3.N, (cfg3.win 3).flush t = true ∧ i ∈ ((cfg3.win 3).blk t).view.set := by
  have hi0 : (i 0).val < 500000 := (i 0).isLt
  have hi1 : (i 1).val < 64 := (i 1).isLt
  have hN : cfg3.N = 100 := N_3
  obtain ⟨t, ht⟩ : ∃ t : Fin cfg3.N, t.val = (i 0).val / 5000 := ⟨⟨(i 0).val / 5000, by rw [hN]; omega⟩, rfl⟩
  obtain ⟨e0_0, e0_1, e1_0, e1_1, e2_0, e2_1, e3_0, e3_1⟩ := index_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e3_0, ht]; omega
  | ⟨1, _⟩ => show win3_3.index t (1 : Fin 2) * 64 ≤ (i 1).val ∧ (i 1).val < win3_3.index t (1 : Fin 2) * 64 + 64; rw [e3_1]; omega

set_option maxHeartbeats 400000 in
/-- Step t of stage 3 writes rows 5000·t … 5000·t + 4999 of the linear stage of the operand arrays. -/
theorem flushed3_eq (c : Dev nD) (t : Fin cfg3.N) :
    (dat3 (F := Ideal) V c).flushed 3 t
      = ((cfg3.win 3).blk t).view.read (Elt Ideal)
          (lin (M := 500000) (V c main_v76) (V c main_arg19) (V c main_v77)) := by
  show (cfg3.win 3).cut (grid3.coords t) ((dat3 V c).after 3 t) = _
  rw [after3_3]
  unfold out3_3
  rw [View.canon_unit_zero zero_offsets]
  simp only [View.ld_unit_zero (S := S5000x64) zero_offsets,
    View.ld_unit_zero (S := S5000x128) zero_offsets,
    View.ld_unit_zero (S := S128x64) zero_offsets,
    View.ld_unit_zero (S := S1x64) zero_offsets]
  funext j
  obtain ⟨p, q, rfl⟩ : ∃ (p : Fin 5000) (q : Fin 64), j = ix2 p q := ⟨j 0, j 1, eq_ix2 j⟩
  have hN : cfg3.N = 100 := N_3
  have ht : t.val < cfg3.N := t.isLt
  obtain ⟨r, hr⟩ : ∃ r : Fin 500000, r.val = 5000 * t.val + p.val := ⟨⟨5000 * t.val + p.val, by omega⟩, rfl⟩
  obtain ⟨e0_0, e0_1, e1_0, e1_1, e2_0, e2_1, e3_0, e3_1⟩ := index_facts3 t
  have hemb : ((cfg3.win 3).blk t).view.emb (ix2 p q) = (ix2 r q : S500000x64.Idx) := by
    funext a
    apply Fin.ext
    match a with
    | ⟨0, _⟩ => show win3_3.index t (0 : Fin 2) * 5000 + 1 * p.val = r.val; rw [e3_0, hr]; omega
    | ⟨1, _⟩ => show win3_3.index t (1 : Fin 2) * 64 + 1 * q.val = q.val; rw [e3_1]; omega
  show k3_pay1 (F := Ideal) (iblk3 V c 0 t) (iblk3 V c 1 t) (iblk3 V c 2 t) (ix2 p q)
    = lin (M := 500000) (V c main_v76) (V c main_arg19) (V c main_v77)
        (((cfg3.win 3).blk t).view.emb (ix2 p q))
  rw [hemb]
  exact lin_entry (M := 500000) (V c main_v76) (V c main_arg19) (V c main_v77)
    (iblk3 V c 0 t) (iblk3 V c 1 t) (iblk3 V c 2 t) r p q
    (fun k => rows3_0 V c t p k r hr) (whole3_1 V c t) (whole3_2 V c t)

set_option maxHeartbeats 400000 in
/-- The output array of stage 3 after its 100 steps is the linear stage of the operand arrays as the stage finds them. -/
theorem region3_value (c : Dev nD) :
    (dat3 (F := Ideal) V c).arrAt 3 cfg3.N
      = Cert.Sage.lin (M := 500000) (V c main_v76) (V c main_arg19) (V c main_v77) :=
  (dat3 (F := Ideal) V c).arrAt_eq_of_cover 3 _ (fun t _ => flushed3_eq V c t) cover3

/-! ## Stage 4: a combine stage on 200000 rows, 40 steps -/

/-- The index maps of stage 4 over its 40 steps: a row-tiled operand's block index is (t, 0), a whole operand's (0, 0). -/
theorem index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 400000 in
/-- Row p of operand 0's block at step t is row 5000·t + p of the operand. -/
theorem rows4_0 (c : Dev nD) (t : Fin cfg4.N) (p : Fin 5000) (k : Fin 128) (r : Fin 200000)
    (hr : r.val = 5000 * t.val + p.val) :
    (iblk4 V c 0 t : Vec Ideal S5000x128 .f32) (ix2 p k) = (V c main_v97 : S200000x128.Idx → EReal) (ix2 r k) := by
  obtain ⟨e0_0, e0_1, e1_0, e1_1, e2_0, e2_1, e3_0, e3_1, e4_0, e4_1, e5_0, e5_1⟩ := index_facts4 t
  unfold iblk4
  rw [View.read_apply]
  show V c main_v97 _ = _
  congr 1
  funext a
  apply Fin.ext
  match a with
  | ⟨0, _⟩ => show win4_0.index t (0 : Fin 2) * 5000 + 1 * p.val = r.val; rw [e0_0, hr]; omega
  | ⟨1, _⟩ => show win4_0.index t (1 : Fin 2) * 128 + 1 * k.val = k.val; rw [e0_1]; omega

set_option maxHeartbeats 400000 in
/-- Row p of operand 1's block at step t is row 5000·t + p of the operand. -/
theorem rows4_1 (c : Dev nD) (t : Fin cfg4.N) (p : Fin 5000) (k : Fin 128) (r : Fin 200000)
    (hr : r.val = 5000 * t.val + p.val) :
    (iblk4 V c 1 t : Vec Ideal S5000x128 .f32) (ix2 p k) = (V c main_v13 : S200000x128.Idx → EReal) (ix2 r k) := by
  obtain ⟨e0_0, e0_1, e1_0, e1_1, e2_0, e2_1, e3_0, e3_1, e4_0, e4_1, e5_0, e5_1⟩ := index_facts4 t
  unfold iblk4
  rw [View.read_apply]
  show V c main_v13 _ = _
  congr 1
  funext a
  apply Fin.ext
  match a with
  | ⟨0, _⟩ => show win4_1.index t (0 : Fin 2) * 5000 + 1 * p.val = r.val; rw [e1_0, hr]; omega
  | ⟨1, _⟩ => show win4_1.index t (1 : Fin 2) * 128 + 1 * k.val = k.val; rw [e1_1]; omega

set_option maxHeartbeats 400000 in
/-- Operand 2's block at every step is the whole operand. -/
theorem whole4_2 (c : Dev nD) (t : Fin cfg4.N) :
    (iblk4 V c 2 t : Vec Ideal S128x128 .f32) = (V c main_arg21 : S128x128.Idx → EReal) := by
  obtain ⟨e0_0, e0_1, e1_0, e1_1, e2_0, e2_1, e3_0, e3_1, e4_0, e4_1, e5_0, e5_1⟩ := index_facts4 t
  unfold iblk4
  funext y
  rw [View.read_apply]
  show V c main_arg21 _ = _
  congr 1
  funext a
  apply Fin.ext
  match a with
  | ⟨0, _⟩ => show win4_2.index t (0 : Fin 2) * 128 + 1 * (y 0).val = (y 0).val; rw [e2_0]; omega
  | ⟨1, _⟩ => show win4_2.index t (1 : Fin 2) * 128 + 1 * (y 1).val = (y 1).val; rw [e2_1]; omega

set_option maxHeartbeats 400000 in
/-- Operand 3's block at every step is the whole operand. -/
theorem whole4_3 (c : Dev nD) (t : Fin cfg4.N) :
    (iblk4 V c 3 t : Vec Ideal S1x128 .f32) = (V c main_v98 : S1x128.Idx → EReal) := by
  obtain ⟨e0_0, e0_1, e1_0, e1_1, e2_0, e2_1, e3_0, e3_1, e4_0, e4_1, e5_0, e5_1⟩ := index_facts4 t
  unfold iblk4
  funext y
  rw [View.read_apply]
  show V c main_v98 _ = _
  congr 1
  funext a
  apply Fin.ext
  match a with
  | ⟨0, _⟩ => show win4_3.index t (0 : Fin 2) * 1 + 1 * (y 0).val = (y 0).val; rw [e3_0]; omega
  | ⟨1, _⟩ => show win4_3.index t (1 : Fin 2) * 128 + 1 * (y 1).val = (y 1).val; rw [e3_1]; omega

set_option maxHeartbeats 400000 in
/-- Operand 4's block at every step is the whole operand. -/
theorem whole4_4 (c : Dev nD) (t : Fin cfg4.N) :
    (iblk4 V c 4 t : Vec Ideal S128x128 .f32) = (V c main_arg23 : S128x128.Idx → EReal) := by
  obtain ⟨e0_0, e0_1, e1_0, e1_1, e2_0, e2_1, e3_0, e3_1, e4_0, e4_1, e5_0, e5_1⟩ := index_facts4 t
  unfold iblk4
  funext y
  rw [View.read_apply]
  show V c main_arg23 _ = _
  congr 1
  funext a
  apply Fin.ext
  match a with
  | ⟨0, _⟩ => show win4_4.index t (0 : Fin 2) * 128 + 1 * (y 0).val = (y 0).val; rw [e4_0]; omega
  | ⟨1, _⟩ => show win4_4.index t (1 : Fin 2) * 128 + 1 * (y 1).val = (y 1).val; rw [e4_1]; omega

set_option maxHeartbeats 400000 in
/-- An entry of the output array lies in step t's block iff each coordinate lies in the block's range on its axis. -/
theorem mem_blk4 (t : Fin cfg4.N) (i : S200000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v99).slice (win4_5.rect t)).set ↔ _
  rw [View.set_slice_whole, Rect.mem_set_unit]
  exact Iff.rfl

set_option maxHeartbeats 400000 in
/-- Every entry of the output array is written: row r at step r / 5000. -/
theorem cover4 (i : S200000x128.Idx) :
    ∃ t : Fin cfg4.N, (cfg4.win 5).flush t = true ∧ i ∈ ((cfg4.win 5).blk t).view.set := by
  have hi0 : (i 0).val < 200000 := (i 0).isLt
  have hi1 : (i 1).val < 128 := (i 1).isLt
  have hN : cfg4.N = 40 := N_4
  obtain ⟨t, ht⟩ : ∃ t : Fin cfg4.N, t.val = (i 0).val / 5000 := ⟨⟨(i 0).val / 5000, by rw [hN]; omega⟩, rfl⟩
  obtain ⟨e0_0, e0_1, e1_0, e1_1, e2_0, e2_1, e3_0, e3_1, e4_0, e4_1, e5_0, e5_1⟩ := index_facts4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; rw [e5_0, ht]; omega
  | ⟨1, _⟩ => show win4_5.index t (1 : Fin 2) * 128 ≤ (i 1).val ∧ (i 1).val < win4_5.index t (1 : Fin 2) * 128 + 128; rw [e5_1]; omega

set_option maxHeartbeats 400000 in
/-- Step t of stage 4 writes rows 5000·t … 5000·t + 4999 of the combine stage of the operand arrays. -/
theorem flushed4_eq (c : Dev nD) (t : Fin cfg4.N) :
    (dat4 (F := Ideal) V c).flushed 5 t
      = ((cfg4.win 5).blk t).view.read (Elt Ideal)
          (sage (M := 200000) (V c main_v97) (V c main_v13) (V c main_arg21) (V c main_v98) (V c main_arg23)) := by
  show (cfg4.win 5).cut (grid4.coords t) ((dat4 V c).after 5 t) = _
  rw [after4_5]
  unfold out4_5
  rw [View.canon_unit_zero zero_offsets]
  simp only [View.ld_unit_zero (S := S5000x128) zero_offsets,
    View.ld_unit_zero (S := S128x128) zero_offsets,
    View.ld_unit_zero (S := S1x128) zero_offsets]
  rw [Cert.Sage.Block.pay4_eq]
  funext j
  obtain ⟨p, q, rfl⟩ : ∃ (p : Fin 5000) (q : Fin 128), j = ix2 p q := ⟨j 0, j 1, eq_ix2 j⟩
  have hN : cfg4.N = 40 := N_4
  have ht : t.val < cfg4.N := t.isLt
  obtain ⟨r, hr⟩ : ∃ r : Fin 200000, r.val = 5000 * t.val + p.val := ⟨⟨5000 * t.val + p.val, by omega⟩, rfl⟩
  obtain ⟨e0_0, e0_1, e1_0, e1_1, e2_0, e2_1, e3_0, e3_1, e4_0, e4_1, e5_0, e5_1⟩ := index_facts4 t
  have hemb : ((cfg4.win 5).blk t).view.emb (ix2 p q) = (ix2 r q : S200000x128.Idx) := by
    funext a
    apply Fin.ext
    match a with
    | ⟨0, _⟩ => show win4_5.index t (0 : Fin 2) * 5000 + 1 * p.val = r.val; rw [e5_0, hr]; omega
    | ⟨1, _⟩ => show win4_5.index t (1 : Fin 2) * 128 + 1 * q.val = q.val; rw [e5_1]; omega
  show k0_pay1 (F := Ideal) (iblk4 V c 0 t) (iblk4 V c 1 t) (iblk4 V c 2 t) (iblk4 V c 4 t) (iblk4 V c 3 t) (ix2 p q)
    = sage (M := 200000) (V c main_v97) (V c main_v13) (V c main_arg21) (V c main_v98) (V c main_arg23)
        (((cfg4.win 5).blk t).view.emb (ix2 p q))
  rw [hemb]
  exact sage_entry (M := 200000) (V c main_v97) (V c main_v13) (V c main_arg21) (V c main_v98) (V c main_arg23)
    (iblk4 V c 0 t) (iblk4 V c 1 t) (iblk4 V c 2 t) (iblk4 V c 3 t) (iblk4 V c 4 t) r p q
    (fun k => rows4_0 V c t p k r hr) (fun k => rows4_1 V c t p k r hr) (whole4_2 V c t) (whole4_3 V c t) (whole4_4 V c t)

set_option maxHeartbeats 400000 in
/-- The output array of stage 4 after its 40 steps is the combine stage of the operand arrays as the stage finds them. -/
theorem region4_value (c : Dev nD) :
    (dat4 (F := Ideal) V c).arrAt 5 cfg4.N
      = Cert.Sage.sage (M := 200000) (V c main_v97) (V c main_v13) (V c main_arg21) (V c main_v98) (V c main_arg23) :=
  (dat4 (F := Ideal) V c).arrAt_eq_of_cover 5 _ (fun t _ => flushed4_eq V c t) cover4

/-! ## Stage 5: a combine stage on 200000 rows, 40 steps -/

/-- The index maps of stage 5 over its 40 steps: a row-tiled operand's block index is (t, 0), a whole operand's (0, 0). -/
theorem index_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 400000 in
/-- Row p of operand 0's block at step t is row 5000·t + p of the operand. -/
theorem rows5_0 (c : Dev nD) (t : Fin cfg5.N) (p : Fin 5000) (k : Fin 128) (r : Fin 200000)
    (hr : r.val = 5000 * t.val + p.val) :
    (iblk5 V c 0 t : Vec Ideal S5000x128 .f32) (ix2 p k) = (V c main_v118 : S200000x128.Idx → EReal) (ix2 r k) := by
  obtain ⟨e0_0, e0_1, e1_0, e1_1, e2_0, e2_1, e3_0, e3_1, e4_0, e4_1, e5_0, e5_1⟩ := index_facts5 t
  unfold iblk5
  rw [View.read_apply]
  show V c main_v118 _ = _
  congr 1
  funext a
  apply Fin.ext
  match a with
  | ⟨0, _⟩ => show win5_0.index t (0 : Fin 2) * 5000 + 1 * p.val = r.val; rw [e0_0, hr]; omega
  | ⟨1, _⟩ => show win5_0.index t (1 : Fin 2) * 128 + 1 * k.val = k.val; rw [e0_1]; omega

set_option maxHeartbeats 400000 in
/-- Row p of operand 1's block at step t is row 5000·t + p of the operand. -/
theorem rows5_1 (c : Dev nD) (t : Fin cfg5.N) (p : Fin 5000) (k : Fin 128) (r : Fin 200000)
    (hr : r.val = 5000 * t.val + p.val) :
    (iblk5 V c 1 t : Vec Ideal S5000x128 .f32) (ix2 p k) = (V c main_v99 : S200000x128.Idx → EReal) (ix2 r k) := by
  obtain ⟨e0_0, e0_1, e1_0, e1_1, e2_0, e2_1, e3_0, e3_1, e4_0, e4_1, e5_0, e5_1⟩ := index_facts5 t
  unfold iblk5
  rw [View.read_apply]
  show V c main_v99 _ = _
  congr 1
  funext a
  apply Fin.ext
  match a with
  | ⟨0, _⟩ => show win5_1.index t (0 : Fin 2) * 5000 + 1 * p.val = r.val; rw [e1_0, hr]; omega
  | ⟨1, _⟩ => show win5_1.index t (1 : Fin 2) * 128 + 1 * k.val = k.val; rw [e1_1]; omega

set_option maxHeartbeats 400000 in
/-- Operand 2's block at every step is the whole operand. -/
theorem whole5_2 (c : Dev nD) (t : Fin cfg5.N) :
    (iblk5 V c 2 t : Vec Ideal S128x128 .f32) = (V c main_arg24 : S128x128.Idx → EReal) := by
  obtain ⟨e0_0, e0_1, e1_0, e1_1, e2_0, e2_1, e3_0, e3_1, e4_0, e4_1, e5_0, e5_1⟩ := index_facts5 t
  unfold iblk5
  funext y
  rw [View.read_apply]
  show V c main_arg24 _ = _
  congr 1
  funext a
  apply Fin.ext
  match a with
  | ⟨0, _⟩ => show win5_2.index t (0 : Fin 2) * 128 + 1 * (y 0).val = (y 0).val; rw [e2_0]; omega
  | ⟨1, _⟩ => show win5_2.index t (1 : Fin 2) * 128 + 1 * (y 1).val = (y 1).val; rw [e2_1]; omega

set_option maxHeartbeats 400000 in
/-- Operand 3's block at every step is the whole operand. -/
theorem whole5_3 (c : Dev nD) (t : Fin cfg5.N) :
    (iblk5 V c 3 t : Vec Ideal S1x128 .f32) = (V c main_v119 : S1x128.Idx → EReal) := by
  obtain ⟨e0_0, e0_1, e1_0, e1_1, e2_0, e2_1, e3_0, e3_1, e4_0, e4_1, e5_0, e5_1⟩ := index_facts5 t
  unfold iblk5
  funext y
  rw [View.read_apply]
  show V c main_v119 _ = _
  congr 1
  funext a
  apply Fin.ext
  match a with
  | ⟨0, _⟩ => show win5_3.index t (0 : Fin 2) * 1 + 1 * (y 0).val = (y 0).val; rw [e3_0]; omega
  | ⟨1, _⟩ => show win5_3.index t (1 : Fin 2) * 128 + 1 * (y 1).val = (y 1).val; rw [e3_1]; omega

set_option maxHeartbeats 400000 in
/-- Operand 4's block at every step is the whole operand. -/
theorem whole5_4 (c : Dev nD) (t : Fin cfg5.N) :
    (iblk5 V c 4 t : Vec Ideal S128x128 .f32) = (V c main_arg26 : S128x128.Idx → EReal) := by
  obtain ⟨e0_0, e0_1, e1_0, e1_1, e2_0, e2_1, e3_0, e3_1, e4_0, e4_1, e5_0, e5_1⟩ := index_facts5 t
  unfold iblk5
  funext y
  rw [View.read_apply]
  show V c main_arg26 _ = _
  congr 1
  funext a
  apply Fin.ext
  match a with
  | ⟨0, _⟩ => show win5_4.index t (0 : Fin 2) * 128 + 1 * (y 0).val = (y 0).val; rw [e4_0]; omega
  | ⟨1, _⟩ => show win5_4.index t (1 : Fin 2) * 128 + 1 * (y 1).val = (y 1).val; rw [e4_1]; omega

set_option maxHeartbeats 400000 in
/-- An entry of the output array lies in step t's block iff each coordinate lies in the block's range on its axis. -/
theorem mem_blk5 (t : Fin cfg5.N) (i : S200000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v120).slice (win5_5.rect t)).set ↔ _
  rw [View.set_slice_whole, Rect.mem_set_unit]
  exact Iff.rfl

set_option maxHeartbeats 400000 in
/-- Every entry of the output array is written: row r at step r / 5000. -/
theorem cover5 (i : S200000x128.Idx) :
    ∃ t : Fin cfg5.N, (cfg5.win 5).flush t = true ∧ i ∈ ((cfg5.win 5).blk t).view.set := by
  have hi0 : (i 0).val < 200000 := (i 0).isLt
  have hi1 : (i 1).val < 128 := (i 1).isLt
  have hN : cfg5.N = 40 := N_5
  obtain ⟨t, ht⟩ : ∃ t : Fin cfg5.N, t.val = (i 0).val / 5000 := ⟨⟨(i 0).val / 5000, by rw [hN]; omega⟩, rfl⟩
  obtain ⟨e0_0, e0_1, e1_0, e1_1, e2_0, e2_1, e3_0, e3_1, e4_0, e4_1, e5_0, e5_1⟩ := index_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; rw [e5_0, ht]; omega
  | ⟨1, _⟩ => show win5_5.index t (1 : Fin 2) * 128 ≤ (i 1).val ∧ (i 1).val < win5_5.index t (1 : Fin 2) * 128 + 128; rw [e5_1]; omega

set_option maxHeartbeats 400000 in
/-- Step t of stage 5 writes rows 5000·t … 5000·t + 4999 of the combine stage of the operand arrays. -/
theorem flushed5_eq (c : Dev nD) (t : Fin cfg5.N) :
    (dat5 (F := Ideal) V c).flushed 5 t
      = ((cfg5.win 5).blk t).view.read (Elt Ideal)
          (sage (M := 200000) (V c main_v118) (V c main_v99) (V c main_arg24) (V c main_v119) (V c main_arg26)) := by
  show (cfg5.win 5).cut (grid5.coords t) ((dat5 V c).after 5 t) = _
  rw [after5_5]
  unfold out5_5
  rw [View.canon_unit_zero zero_offsets]
  simp only [View.ld_unit_zero (S := S5000x128) zero_offsets,
    View.ld_unit_zero (S := S128x128) zero_offsets,
    View.ld_unit_zero (S := S1x128) zero_offsets]
  rw [Cert.Sage.Block.pay5_eq]
  funext j
  obtain ⟨p, q, rfl⟩ : ∃ (p : Fin 5000) (q : Fin 128), j = ix2 p q := ⟨j 0, j 1, eq_ix2 j⟩
  have hN : cfg5.N = 40 := N_5
  have ht : t.val < cfg5.N := t.isLt
  obtain ⟨r, hr⟩ : ∃ r : Fin 200000, r.val = 5000 * t.val + p.val := ⟨⟨5000 * t.val + p.val, by omega⟩, rfl⟩
  obtain ⟨e0_0, e0_1, e1_0, e1_1, e2_0, e2_1, e3_0, e3_1, e4_0, e4_1, e5_0, e5_1⟩ := index_facts5 t
  have hemb : ((cfg5.win 5).blk t).view.emb (ix2 p q) = (ix2 r q : S200000x128.Idx) := by
    funext a
    apply Fin.ext
    match a with
    | ⟨0, _⟩ => show win5_5.index t (0 : Fin 2) * 5000 + 1 * p.val = r.val; rw [e5_0, hr]; omega
    | ⟨1, _⟩ => show win5_5.index t (1 : Fin 2) * 128 + 1 * q.val = q.val; rw [e5_1]; omega
  show k0_pay1 (F := Ideal) (iblk5 V c 0 t) (iblk5 V c 1 t) (iblk5 V c 2 t) (iblk5 V c 4 t) (iblk5 V c 3 t) (ix2 p q)
    = sage (M := 200000) (V c main_v118) (V c main_v99) (V c main_arg24) (V c main_v119) (V c main_arg26)
        (((cfg5.win 5).blk t).view.emb (ix2 p q))
  rw [hemb]
  exact sage_entry (M := 200000) (V c main_v118) (V c main_v99) (V c main_arg24) (V c main_v119) (V c main_arg26)
    (iblk5 V c 0 t) (iblk5 V c 1 t) (iblk5 V c 2 t) (iblk5 V c 3 t) (iblk5 V c 4 t) r p q
    (fun k => rows5_0 V c t p k r hr) (fun k => rows5_1 V c t p k r hr) (whole5_2 V c t) (whole5_3 V c t) (whole5_4 V c t)

set_option maxHeartbeats 400000 in
/-- The output array of stage 5 after its 40 steps is the combine stage of the operand arrays as the stage finds them. -/
theorem region5_value (c : Dev nD) :
    (dat5 (F := Ideal) V c).arrAt 5 cfg5.N
      = Cert.Sage.sage (M := 200000) (V c main_v118) (V c main_v99) (V c main_arg24) (V c main_v119) (V c main_arg26) :=
  (dat5 (F := Ideal) V c).arrAt_eq_of_cover 5 _ (fun t _ => flushed5_eq V c t) cover5

/-! ## Stage 6: a linear stage on 200000 rows, 40 steps -/

/-- The index maps of stage 6 over its 40 steps: a row-tiled operand's block index is (t, 0), a whole operand's (0, 0). -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

set_option maxHeartbeats 400000 in
/-- Row p of operand 0's block at step t is row 5000·t + p of the operand. -/
theorem rows6_0 (c : Dev nD) (t : Fin cfg6.N) (p : Fin 5000) (k : Fin 128) (r : Fin 200000)
    (hr : r.val = 5000 * t.val + p.val) :
    (iblk6 V c 0 t : Vec Ideal S5000x128 .f32) (ix2 p k) = (V c main_v120 : S200000x128.Idx → EReal) (ix2 r k) := by
  obtain ⟨e0_0, e0_1, e1_0, e1_1, e2_0, e2_1, e3_0, e3_1⟩ := index_facts6 t
  unfold iblk6
  rw [View.read_apply]
  show V c main_v120 _ = _
  congr 1
  funext a
  apply Fin.ext
  match a with
  | ⟨0, _⟩ => show win6_0.index t (0 : Fin 2) * 5000 + 1 * p.val = r.val; rw [e0_0, hr]; omega
  | ⟨1, _⟩ => show win6_0.index t (1 : Fin 2) * 128 + 1 * k.val = k.val; rw [e0_1]; omega

set_option maxHeartbeats 400000 in
/-- Operand 1's block at every step is the whole operand. -/
theorem whole6_1 (c : Dev nD) (t : Fin cfg6.N) :
    (iblk6 V c 1 t : Vec Ideal S128x64 .f32) = (V c main_arg27 : S128x64.Idx → EReal) := by
  obtain ⟨e0_0, e0_1, e1_0, e1_1, e2_0, e2_1, e3_0, e3_1⟩ := index_facts6 t
  unfold iblk6
  funext y
  rw [View.read_apply]
  show V c main_arg27 _ = _
  congr 1
  funext a
  apply Fin.ext
  match a with
  | ⟨0, _⟩ => show win6_1.index t (0 : Fin 2) * 128 + 1 * (y 0).val = (y 0).val; rw [e1_0]; omega
  | ⟨1, _⟩ => show win6_1.index t (1 : Fin 2) * 64 + 1 * (y 1).val = (y 1).val; rw [e1_1]; omega

set_option maxHeartbeats 400000 in
/-- Operand 2's block at every step is the whole operand. -/
theorem whole6_2 (c : Dev nD) (t : Fin cfg6.N) :
    (iblk6 V c 2 t : Vec Ideal S1x64 .f32) = (V c main_v121 : S1x64.Idx → EReal) := by
  obtain ⟨e0_0, e0_1, e1_0, e1_1, e2_0, e2_1, e3_0, e3_1⟩ := index_facts6 t
  unfold iblk6
  funext y
  rw [View.read_apply]
  show V c main_v121 _ = _
  congr 1
  funext a
  apply Fin.ext
  match a with
  | ⟨0, _⟩ => show win6_2.index t (0 : Fin 2) * 1 + 1 * (y 0).val = (y 0).val; rw [e2_0]; omega
  | ⟨1, _⟩ => show win6_2.index t (1 : Fin 2) * 64 + 1 * (y 1).val = (y 1).val; rw [e2_1]; omega

set_option maxHeartbeats 400000 in
/-- An entry of the output array lies in step t's block iff each coordinate lies in the block's range on its axis. -/
theorem mem_blk6 (t : Fin cfg6.N) (i : S200000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v122).slice (win6_3.rect t)).set ↔ _
  rw [View.set_slice_whole, Rect.mem_set_unit]
  exact Iff.rfl

set_option maxHeartbeats 400000 in
/-- Every entry of the output array is written: row r at step r / 5000. -/
theorem cover6 (i : S200000x64.Idx) :
    ∃ t : Fin cfg6.N, (cfg6.win 3).flush t = true ∧ i ∈ ((cfg6.win 3).blk t).view.set := by
  have hi0 : (i 0).val < 200000 := (i 0).isLt
  have hi1 : (i 1).val < 64 := (i 1).isLt
  have hN : cfg6.N = 40 := N_6
  obtain ⟨t, ht⟩ : ∃ t : Fin cfg6.N, t.val = (i 0).val / 5000 := ⟨⟨(i 0).val / 5000, by rw [hN]; omega⟩, rfl⟩
  obtain ⟨e0_0, e0_1, e1_0, e1_1, e2_0, e2_1, e3_0, e3_1⟩ := index_facts6 t
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; rw [e3_0, ht]; omega
  | ⟨1, _⟩ => show win6_3.index t (1 : Fin 2) * 64 ≤ (i 1).val ∧ (i 1).val < win6_3.index t (1 : Fin 2) * 64 + 64; rw [e3_1]; omega

set_option maxHeartbeats 400000 in
/-- Step t of stage 6 writes rows 5000·t … 5000·t + 4999 of the linear stage of the operand arrays. -/
theorem flushed6_eq (c : Dev nD) (t : Fin cfg6.N) :
    (dat6 (F := Ideal) V c).flushed 3 t
      = ((cfg6.win 3).blk t).view.read (Elt Ideal)
          (lin (M := 200000) (V c main_v120) (V c main_arg27) (V c main_v121)) := by
  show (cfg6.win 3).cut (grid6.coords t) ((dat6 V c).after 3 t) = _
  rw [after6_3]
  unfold out6_3
  rw [View.canon_unit_zero zero_offsets]
  simp only [View.ld_unit_zero (S := S5000x64) zero_offsets,
    View.ld_unit_zero (S := S5000x128) zero_offsets,
    View.ld_unit_zero (S := S128x64) zero_offsets,
    View.ld_unit_zero (S := S1x64) zero_offsets]
  rw [Cert.Sage.Block.pay6_eq]
  funext j
  obtain ⟨p, q, rfl⟩ : ∃ (p : Fin 5000) (q : Fin 64), j = ix2 p q := ⟨j 0, j 1, eq_ix2 j⟩
  have hN : cfg6.N = 40 := N_6
  have ht : t.val < cfg6.N := t.isLt
  obtain ⟨r, hr⟩ : ∃ r : Fin 200000, r.val = 5000 * t.val + p.val := ⟨⟨5000 * t.val + p.val, by omega⟩, rfl⟩
  obtain ⟨e0_0, e0_1, e1_0, e1_1, e2_0, e2_1, e3_0, e3_1⟩ := index_facts6 t
  have hemb : ((cfg6.win 3).blk t).view.emb (ix2 p q) = (ix2 r q : S200000x64.Idx) := by
    funext a
    apply Fin.ext
    match a with
    | ⟨0, _⟩ => show win6_3.index t (0 : Fin 2) * 5000 + 1 * p.val = r.val; rw [e3_0, hr]; omega
    | ⟨1, _⟩ => show win6_3.index t (1 : Fin 2) * 64 + 1 * q.val = q.val; rw [e3_1]; omega
  show k3_pay1 (F := Ideal) (iblk6 V c 0 t) (iblk6 V c 1 t) (iblk6 V c 2 t) (ix2 p q)
    = lin (M := 200000) (V c main_v120) (V c main_arg27) (V c main_v121)
        (((cfg6.win 3).blk t).view.emb (ix2 p q))
  rw [hemb]
  exact lin_entry (M := 200000) (V c main_v120) (V c main_arg27) (V c main_v121)
    (iblk6 V c 0 t) (iblk6 V c 1 t) (iblk6 V c 2 t) r p q
    (fun k => rows6_0 V c t p k r hr) (whole6_1 V c t) (whole6_2 V c t)

set_option maxHeartbeats 400000 in
/-- The output array of stage 6 after its 40 steps is the linear stage of the operand arrays as the stage finds them. -/
theorem region6_value (c : Dev nD) :
    (dat6 (F := Ideal) V c).arrAt 3 cfg6.N
      = Cert.Sage.lin (M := 200000) (V c main_v120) (V c main_arg27) (V c main_v121) :=
  (dat6 (F := Ideal) V c).arrAt_eq_of_cover 3 _ (fun t _ => flushed6_eq V c t) cover6

/-! ## Stage 7: a decoder stage on 500000 rows, 100 steps -/

/-- The index maps of stage 7 over its 100 steps: a row-tiled operand's block index is (t, 0), a whole operand's (0, 0). -/
theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

set_option maxHeartbeats 400000 in
/-- Row p of operand 0's block at step t is row 5000·t + p of the operand. -/
theorem rows7_0 (c : Dev nD) (t : Fin cfg7.N) (p : Fin 5000) (k : Fin 128) (r : Fin 500000)
    (hr : r.val = 5000 * t.val + p.val) :
    (iblk7 V c 0 t : Vec Ideal S5000x128 .f32) (ix2 p k) = (V c main_v137 : S500000x128.Idx → EReal) (ix2 r k) := by
  obtain ⟨e0_0, e0_1, e1_0, e1_1, e2_0, e2_1, e3_0, e3_1, e4_0, e4_1, e5_0, e5_1⟩ := index_facts7 t
  unfold iblk7
  rw [View.read_apply]
  show V c main_v137 _ = _
  congr 1
  funext a
  apply Fin.ext
  match a with
  | ⟨0, _⟩ => show win7_0.index t (0 : Fin 2) * 5000 + 1 * p.val = r.val; rw [e0_0, hr]; omega
  | ⟨1, _⟩ => show win7_0.index t (1 : Fin 2) * 128 + 1 * k.val = k.val; rw [e0_1]; omega

set_option maxHeartbeats 400000 in
/-- Operand 1's block at every step is the whole operand. -/
theorem whole7_1 (c : Dev nD) (t : Fin cfg7.N) :
    (iblk7 V c 1 t : Vec Ideal S128x64 .f32) = (V c main_arg29 : S128x64.Idx → EReal) := by
  obtain ⟨e0_0, e0_1, e1_0, e1_1, e2_0, e2_1, e3_0, e3_1, e4_0, e4_1, e5_0, e5_1⟩ := index_facts7 t
  unfold iblk7
  funext y
  rw [View.read_apply]
  show V c main_arg29 _ = _
  congr 1
  funext a
  apply Fin.ext
  match a with
  | ⟨0, _⟩ => show win7_1.index t (0 : Fin 2) * 128 + 1 * (y 0).val = (y 0).val; rw [e1_0]; omega
  | ⟨1, _⟩ => show win7_1.index t (1 : Fin 2) * 64 + 1 * (y 1).val = (y 1).val; rw [e1_1]; omega

set_option maxHeartbeats 400000 in
/-- Operand 2's block at every step is the whole operand. -/
theorem whole7_2 (c : Dev nD) (t : Fin cfg7.N) :
    (iblk7 V c 2 t : Vec Ideal S1x64 .f32) = (V c main_v138 : S1x64.Idx → EReal) := by
  obtain ⟨e0_0, e0_1, e1_0, e1_1, e2_0, e2_1, e3_0, e3_1, e4_0, e4_1, e5_0, e5_1⟩ := index_facts7 t
  unfold iblk7
  funext y
  rw [View.read_apply]
  show V c main_v138 _ = _
  congr 1
  funext a
  apply Fin.ext
  match a with
  | ⟨0, _⟩ => show win7_2.index t (0 : Fin 2) * 1 + 1 * (y 0).val = (y 0).val; rw [e2_0]; omega
  | ⟨1, _⟩ => show win7_2.index t (1 : Fin 2) * 64 + 1 * (y 1).val = (y 1).val; rw [e2_1]; omega

set_option maxHeartbeats 400000 in
/-- Operand 3's block at every step is the whole operand. -/
theorem whole7_3 (c : Dev nD) (t : Fin cfg7.N) :
    (iblk7 V c 3 t : Vec Ideal S64x1 .f32) = (V c main_arg31 : S64x1.Idx → EReal) := by
  obtain ⟨e0_0, e0_1, e1_0, e1_1, e2_0, e2_1, e3_0, e3_1, e4_0, e4_1, e5_0, e5_1⟩ := index_facts7 t
  unfold iblk7
  funext y
  rw [View.read_apply]
  show V c main_arg31 _ = _
  congr 1
  funext a
  apply Fin.ext
  match a with
  | ⟨0, _⟩ => show win7_3.index t (0 : Fin 2) * 64 + 1 * (y 0).val = (y 0).val; rw [e3_0]; omega
  | ⟨1, _⟩ => show win7_3.index t (1 : Fin 2) * 1 + 1 * (y 1).val = (y 1).val; rw [e3_1]; omega

set_option maxHeartbeats 400000 in
/-- Operand 4's block at every step is the whole operand. -/
theorem whole7_4 (c : Dev nD) (t : Fin cfg7.N) :
    (iblk7 V c 4 t : Vec Ideal S1x1 .f32) = (V c main_v139 : S1x1.Idx → EReal) := by
  obtain ⟨e0_0, e0_1, e1_0, e1_1, e2_0, e2_1, e3_0, e3_1, e4_0, e4_1, e5_0, e5_1⟩ := index_facts7 t
  unfold iblk7
  funext y
  rw [View.read_apply]
  show V c main_v139 _ = _
  congr 1
  funext a
  apply Fin.ext
  match a with
  | ⟨0, _⟩ => show win7_4.index t (0 : Fin 2) * 1 + 1 * (y 0).val = (y 0).val; rw [e4_0]; omega
  | ⟨1, _⟩ => show win7_4.index t (1 : Fin 2) * 1 + 1 * (y 1).val = (y 1).val; rw [e4_1]; omega

set_option maxHeartbeats 400000 in
/-- An entry of the output array lies in step t's block iff each coordinate lies in the block's range on its axis. -/
theorem mem_blk7 (t : Fin cfg7.N) (i : S500000x1.Idx) :
    i ∈ ((cfg7.win 5).blk t).view.set ↔ ∀ a : Fin 2, win7_5.index t a * S5000x1.size a ≤ (i a).val ∧ (i a).val < win7_5.index t a * S5000x1.size a + S5000x1.size a := by
  show i ∈ ((View.whole main_v140).slice (win7_5.rect t)).set ↔ _
  rw [View.set_slice_whole, Rect.mem_set_unit]
  exact Iff.rfl

set_option maxHeartbeats 400000 in
/-- Every entry of the output array is written: row r at step r / 5000. -/
theorem cover7 (i : S500000x1.Idx) :
    ∃ t : Fin cfg7.N, (cfg7.win 5).flush t = true ∧ i ∈ ((cfg7.win 5).blk t).view.set := by
  have hi0 : (i 0).val < 500000 := (i 0).isLt
  have hi1 : (i 1).val < 1 := (i 1).isLt
  have hN : cfg7.N = 100 := N_7
  obtain ⟨t, ht⟩ : ∃ t : Fin cfg7.N, t.val = (i 0).val / 5000 := ⟨⟨(i 0).val / 5000, by rw [hN]; omega⟩, rfl⟩
  obtain ⟨e0_0, e0_1, e1_0, e1_1, e2_0, e2_1, e3_0, e3_1, e4_0, e4_1, e5_0, e5_1⟩ := index_facts7 t
  refine ⟨t, flush7_5 t, ?_⟩
  rw [mem_blk7]
  intro a
  match a with
  | ⟨0, _⟩ => show win7_5.index t (0 : Fin 2) * 5000 ≤ (i 0).val ∧ (i 0).val < win7_5.index t (0 : Fin 2) * 5000 + 5000; rw [e5_0, ht]; omega
  | ⟨1, _⟩ => show win7_5.index t (1 : Fin 2) * 1 ≤ (i 1).val ∧ (i 1).val < win7_5.index t (1 : Fin 2) * 1 + 1; rw [e5_1]; omega

set_option maxHeartbeats 400000 in
/-- Step t of stage 7 writes rows 5000·t … 5000·t + 4999 of the decoder stage of the operand arrays. -/
theorem flushed7_eq (c : Dev nD) (t : Fin cfg7.N) :
    (dat7 (F := Ideal) V c).flushed 5 t
      = ((cfg7.win 5).blk t).view.read (Elt Ideal)
          (dec (M := 500000) (V c main_v137) (V c main_arg29) (V c main_v138) (V c main_arg31) (V c main_v139)) := by
  show (cfg7.win 5).cut (grid7.coords t) ((dat7 V c).after 5 t) = _
  rw [after7_5]
  unfold out7_5
  rw [View.canon_unit_zero zero_offsets]
  simp only [View.ld_unit_zero (S := S5000x1) zero_offsets,
    View.ld_unit_zero (S := S5000x128) zero_offsets,
    View.ld_unit_zero (S := S128x64) zero_offsets,
    View.ld_unit_zero (S := S1x64) zero_offsets,
    View.ld_unit_zero (S := S64x1) zero_offsets,
    View.ld_unit_zero (S := S1x1) zero_offsets]
  funext j
  obtain ⟨p, q, rfl⟩ : ∃ (p : Fin 5000) (q : Fin 1), j = ix2 p q := ⟨j 0, j 1, eq_ix2 j⟩
  have hN : cfg7.N = 100 := N_7
  have ht : t.val < cfg7.N := t.isLt
  obtain ⟨r, hr⟩ : ∃ r : Fin 500000, r.val = 5000 * t.val + p.val := ⟨⟨5000 * t.val + p.val, by omega⟩, rfl⟩
  obtain ⟨e0_0, e0_1, e1_0, e1_1, e2_0, e2_1, e3_0, e3_1, e4_0, e4_1, e5_0, e5_1⟩ := index_facts7 t
  have hemb : ((cfg7.win 5).blk t).view.emb (ix2 p q) = (ix2 r q : S500000x1.Idx) := by
    funext a
    apply Fin.ext
    match a with
    | ⟨0, _⟩ => show win7_5.index t (0 : Fin 2) * 5000 + 1 * p.val = r.val; rw [e5_0, hr]; omega
    | ⟨1, _⟩ => show win7_5.index t (1 : Fin 2) * 1 + 1 * q.val = q.val; rw [e5_1]; omega
  show k7_pay1 (F := Ideal) (iblk7 V c 0 t) (iblk7 V c 1 t) (iblk7 V c 2 t) (iblk7 V c 3 t) (iblk7 V c 4 t) (ix2 p q)
    = dec (M := 500000) (V c main_v137) (V c main_arg29) (V c main_v138) (V c main_arg31) (V c main_v139)
        (((cfg7.win 5).blk t).view.emb (ix2 p q))
  rw [hemb]
  exact dec_entry (M := 500000) (V c main_v137) (V c main_arg29) (V c main_v138) (V c main_arg31) (V c main_v139)
    (iblk7 V c 0 t) (iblk7 V c 1 t) (iblk7 V c 2 t) (iblk7 V c 3 t) (iblk7 V c 4 t) r p q
    (fun k => rows7_0 V c t p k r hr) (whole7_1 V c t) (whole7_2 V c t) (whole7_3 V c t) (whole7_4 V c t)

set_option maxHeartbeats 400000 in
/-- The output array of stage 7 after its 100 steps is the decoder stage of the operand arrays as the stage finds them. -/
theorem region7_value (c : Dev nD) :
    (dat7 (F := Ideal) V c).arrAt 5 cfg7.N
      = Cert.Sage.dec (M := 500000) (V c main_v137) (V c main_arg29) (V c main_v138) (V c main_arg31) (V c main_v139) :=
  (dat7 (F := Ideal) V c).arrAt_eq_of_cover 5 _ (fun t _ => flushed7_eq V c t) cover7

end Cert.Sage.Regions

end
-- ==== Proof.LibPlainDot.lean ====
/-
  The host's plain matrix product, read at an entry.

  For a `dot_general` whose dimension numbers contract the left operand's columns against the right operand's
  rows, with no batch axis — `[M, K] × [K, N] → [M, N]` — the product on the host is, at the extended reals, the
  textbook sum: entry `(p, c)` is the sum over `k` of `lhs (p, k) · rhs (k, c)`. As for a kernel's product into a
  zero accumulator, the dimension numbers enter only through four coordinate facts about the dot's operand indices
  and the fact that exactly one axis, of extent `K`, is contracted; the lemma is general in the extents, the element
  types and the contraction precision.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry `(p, c)` of the host's `lhs · rhs` is `Σ k, lhs (p, k) · rhs (k, c)`: the dot's sum over its one-axis
    contraction index, re-indexed along the bijection of that index with `Fin K`, each operand index then identified
    by its two coordinates. -/
theorem dotGeneral_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    Host.dotGeneral D prec lhs rhs (ix2 p c) = ∑ k : Fin K, lhs (ix2 p k) * rhs (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.LibBiasRow.lean ====
/-
  A bias row added to every row of a matrix, read at an entry.

  A kernel body adds a bias by casting the length-N vector to a 1×N matrix and broadcasting it over the M rows; the
  host adds it by two broadcasts in dimension, first to 1×N and then to M×N. Either way entry (p, c) of the result
  is entry c of the vector. Both lemmas are general in the extents and the element type.
-/
import Idealize.ShloMosaic.Lib.ValueLayout
import proofs.«153538_j79937931313419_1_alg».proof.Proof.LibBroadcastIn

noncomputable section

namespace Cert.LibBiasRow

open Idealize.ShloMosaic Idealize.ShloMosaic.ValueIdx

variable {α : Type}

/-- The kernel's spelling: a vector cast to one row and broadcast over the rows reads the vector at the column. -/
theorem cast_broadcast_apply {M N : ℕ} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ b hc) hb (ix2 p c) = b (ix1 c) :=
  (broadcastTo_1b_ab_apply _ hb p c).trans (shapeCast_a_1a_apply b hc 0 c)

/-- The host's spelling: a vector made one row and that row tiled over the rows reads the vector at the column. -/
theorem row_tile_apply {M N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (c : Fin N) :
    broadcastInDim ⟨2, ![M, N]⟩ ![0, 1] h2 (broadcastInDim ⟨2, ![1, N]⟩ ![1] h1 b) (ix2 p c) = b (ix1 c) :=
  (Cert.LibBroadcastIn.tile_apply h2 _ p c).trans (Cert.LibBroadcastIn.row1_apply h1 b 0 c)

end Cert.LibBiasRow

end
-- ==== Proof.RefStages.lean ====
/-
  The reference program's eight dense stages, each as the specification's function of its operand stages.

  A combine stage of the reference is max((agg·Wl + b) + x·Wr, 0): two plain matrix products, the bias vector made
  one row and that row tiled over the rows, and a zero splat. Read at entry (p, c) it is
  max((Σ_k agg(p,k)·Wl(k,c) + b(c)) + Σ_k x(p,k)·Wr(k,c), 0), which is the specification's max((Σ + Σ) + b(c), 0)
  because addition on the extended reals is commutative and associative with no finiteness assumption. The
  specification takes the bias as a one-row matrix; here that row is the bias vector reshaped to one row, whose entry
  (0, c) is the vector's entry c. A linear head is one product plus the tiled bias. The decoder is a hidden layer
  (product, tiled bias, clamp at zero) followed by a product with a one-column weight plus a one-entry bias; at (p, u)
  it is the sum over the 64 hidden units of the clamped entry times the weight, plus the bias entry.

  Each of the three kinds is proved once, for any row count and any operand arrays, from the four coordinate facts of
  its product's dimension numbers; the eight stages are instances.
-/
import proofs.«153538_j79937931313419_1_alg».proof.Proof.Gen.ReferenceIdeal.Read
import proofs.«153538_j79937931313419_1_alg».proof.Proof.Spec
import proofs.«153538_j79937931313419_1_alg».proof.Proof.LibPlainDot
import proofs.«153538_j79937931313419_1_alg».proof.Proof.LibBiasRow
import proofs.«153538_j79937931313419_1_alg».proof.Proof.LibBroadcastIn
import Idealize.ShloMosaic.Lib.ValueLayout

noncomputable section

namespace Cert.Sage.Ref

open Cert.ReferenceIdeal Cert.ReferenceIdeal.Gen Cert.ReferenceIdeal.Read Idealize.ShloMosaic Idealize.ShloMosaic.ValueIdx
open scoped BigOperators

/-! ## The three kinds, for any row count -/

/-- A combine stage: max((agg·Wl + b) + x·Wr, 0) is the specification's max((agg·Wl + x·Wr) + b, 0). -/
theorem ref_sage {M : ℕ}
    (D : DotDims ⟨2, ![M, 128]⟩ ⟨2, ![128, 128]⟩ ⟨2, ![M, 128]⟩)
    (hr : D.contr.rank = 1) (hs : D.contr.size ⟨0, by omega⟩ = 128)
    (hl0 : ∀ (i : (⟨2, ![M, 128]⟩ : Shape).Idx) (q : D.contr.Idx), (D.lhsIdx i q 0).val = (i 0).val)
    (hl1 : ∀ (i : (⟨2, ![M, 128]⟩ : Shape).Idx) (q : D.contr.Idx), (D.lhsIdx i q 1).val = (q ⟨0, by omega⟩).val)
    (hr0 : ∀ (i : (⟨2, ![M, 128]⟩ : Shape).Idx) (q : D.contr.Idx), (D.rhsIdx i q 0).val = (q ⟨0, by omega⟩).val)
    (hr1 : ∀ (i : (⟨2, ![M, 128]⟩ : Shape).Idx) (q : D.contr.Idx), (D.rhsIdx i q 1).val = (i 1).val)
    (hb1 : (⟨1, ![128]⟩ : Shape).BroadcastsInDim ⟨2, ![1, 128]⟩ (![1] : Fin 1 → Fin 2))
    (hb2 : (⟨2, ![1, 128]⟩ : Shape).BroadcastsInDim ⟨2, ![M, 128]⟩ (![0, 1] : Fin 2 → Fin 2))
    (hb0 : (⟨0, ![]⟩ : Shape).BroadcastsInDim ⟨2, ![M, 128]⟩ (![] : Fin 0 → Fin 2))
    (h : (⟨1, ![128]⟩ : Shape).ShapeCasts ⟨2, ![1, 128]⟩)
    (agg x : FVec Ideal ⟨2, ![M, 128]⟩ .f32) (wl wr : FVec Ideal ⟨2, ![128, 128]⟩ .f32)
    (b : FVec Ideal ⟨1, ![128]⟩ .f32) :
    maximumf
        (addf
          (addf (Host.dotGeneral D none agg wl)
            (broadcastInDim ⟨2, ![M, 128]⟩ ![0, 1] hb2 (broadcastInDim ⟨2, ![1, 128]⟩ ![1] hb1 b)))
          (Host.dotGeneral D none x wr))
        (broadcastInDim ⟨2, ![M, 128]⟩ ![] hb0 (constant (F := Ideal) ⟨0, ![]⟩ .f32 0x00000000#32))
      = Cert.Sage.sage agg x wl (shapeCast ⟨2, ![1, 128]⟩ b h) wr := by
  funext i
  obtain ⟨p, c, rfl⟩ : ∃ (p : Fin M) (c : Fin 128), i = ix2 p c := ⟨i 0, i 1, eq_ix2 i⟩
  rw [maximumf_apply, addf_apply, addf_apply,
    Cert.LibPlainDot.dotGeneral_ix2 D none hr hs hl0 hl1 hr0 hr1 agg wl p c,
    Cert.LibPlainDot.dotGeneral_ix2 D none hr hs hl0 hl1 hr0 hr1 x wr p c,
    Cert.LibBiasRow.row_tile_apply b hb1 hb2 p c,
    Cert.LibBroadcastIn.scalar_apply hb0 _ (ix2 p c), constant_apply, Ideal.ofBits_zero_f32,
    Cert.Sage.sage_ix2]
  unfold Cert.Sage.sageAt Cert.Sage.denseAt
  rw [shapeCast_a_1a_apply b h 0 c, Cert.Sage.add_bias_comm]

/-- A linear head: x·W plus the tiled bias is the specification's x·W + b. -/
theorem ref_lin {M : ℕ}
    (D : DotDims ⟨2, ![M, 128]⟩ ⟨2, ![128, 64]⟩ ⟨2, ![M, 64]⟩)
    (hr : D.contr.rank = 1) (hs : D.contr.size ⟨0, by omega⟩ = 128)
    (hl0 : ∀ (i : (⟨2, ![M, 64]⟩ : Shape).Idx) (q : D.contr.Idx), (D.lhsIdx i q 0).val = (i 0).val)
    (hl1 : ∀ (i : (⟨2, ![M, 64]⟩ : Shape).Idx) (q : D.contr.Idx), (D.lhsIdx i q 1).val = (q ⟨0, by omega⟩).val)
    (hr0 : ∀ (i : (⟨2, ![M, 64]⟩ : Shape).Idx) (q : D.contr.Idx), (D.rhsIdx i q 0).val = (q ⟨0, by omega⟩).val)
    (hr1 : ∀ (i : (⟨2, ![M, 64]⟩ : Shape).Idx) (q : D.contr.Idx), (D.rhsIdx i q 1).val = (i 1).val)
    (hb1 : (⟨1, ![64]⟩ : Shape).BroadcastsInDim ⟨2, ![1, 64]⟩ (![1] : Fin 1 → Fin 2))
    (hb2 : (⟨2, ![1, 64]⟩ : Shape).BroadcastsInDim ⟨2, ![M, 64]⟩ (![0, 1] : Fin 2 → Fin 2))
    (h : (⟨1, ![64]⟩ : Shape).ShapeCasts ⟨2, ![1, 64]⟩)
    (x : FVec Ideal ⟨2, ![M, 128]⟩ .f32) (w : FVec Ideal ⟨2, ![128, 64]⟩ .f32) (b : FVec Ideal ⟨1, ![64]⟩ .f32) :
    addf (Host.dotGeneral D none x w)
        (broadcastInDim ⟨2, ![M, 64]⟩ ![0, 1] hb2 (broadcastInDim ⟨2, ![1, 64]⟩ ![1] hb1 b))
      = Cert.Sage.lin x w (shapeCast ⟨2, ![1, 64]⟩ b h) := by
  funext i
  obtain ⟨p, c, rfl⟩ : ∃ (p : Fin M) (c : Fin 64), i = ix2 p c := ⟨i 0, i 1, eq_ix2 i⟩
  rw [addf_apply,
    Cert.LibPlainDot.dotGeneral_ix2 D none hr hs hl0 hl1 hr0 hr1 x w p c,
    Cert.LibBiasRow.row_tile_apply b hb1 hb2 p c,
    Cert.Sage.lin_ix2]
  unfold Cert.Sage.linAt Cert.Sage.denseAt
  rw [shapeCast_a_1a_apply b h 0 c]

/-- The decoder: the hidden layer max(z·W1 + b1, 0), then its product with the one-column W2 plus the one-entry b2. -/
theorem ref_dec {M : ℕ}
    (D1 : DotDims ⟨2, ![M, 128]⟩ ⟨2, ![128, 64]⟩ ⟨2, ![M, 64]⟩)
    (hr : D1.contr.rank = 1) (hs : D1.contr.size ⟨0, by omega⟩ = 128)
    (hl0 : ∀ (i : (⟨2, ![M, 64]⟩ : Shape).Idx) (q : D1.contr.Idx), (D1.lhsIdx i q 0).val = (i 0).val)
    (hl1 : ∀ (i : (⟨2, ![M, 64]⟩ : Shape).Idx) (q : D1.contr.Idx), (D1.lhsIdx i q 1).val = (q ⟨0, by omega⟩).val)
    (hr0 : ∀ (i : (⟨2, ![M, 64]⟩ : Shape).Idx) (q : D1.contr.Idx), (D1.rhsIdx i q 0).val = (q ⟨0, by omega⟩).val)
    (hr1 : ∀ (i : (⟨2, ![M, 64]⟩ : Shape).Idx) (q : D1.contr.Idx), (D1.rhsIdx i q 1).val = (i 1).val)
    (D2 : DotDims ⟨2, ![M, 64]⟩ ⟨2, ![64, 1]⟩ ⟨2, ![M, 1]⟩)
    (gr : D2.contr.rank = 1) (gs : D2.contr.size ⟨0, by omega⟩ = 64)
    (gl0 : ∀ (i : (⟨2, ![M, 1]⟩ : Shape).Idx) (q : D2.contr.Idx), (D2.lhsIdx i q 0).val = (i 0).val)
    (gl1 : ∀ (i : (⟨2, ![M, 1]⟩ : Shape).Idx) (q : D2.contr.Idx), (D2.lhsIdx i q 1).val = (q ⟨0, by omega⟩).val)
    (gr0 : ∀ (i : (⟨2, ![M, 1]⟩ : Shape).Idx) (q : D2.contr.Idx), (D2.rhsIdx i q 0).val = (q ⟨0, by omega⟩).val)
    (gr1 : ∀ (i : (⟨2, ![M, 1]⟩ : Shape).Idx) (q : D2.contr.Idx), (D2.rhsIdx i q 1).val = (i 1).val)
    (hb1 : (⟨1, ![64]⟩ : Shape).BroadcastsInDim ⟨2, ![1, 64]⟩ (![1] : Fin 1 → Fin 2))
    (hb2 : (⟨2, ![1, 64]⟩ : Shape).BroadcastsInDim ⟨2, ![M, 64]⟩ (![0, 1] : Fin 2 → Fin 2))
    (hb0 : (⟨0, ![]⟩ : Shape).BroadcastsInDim ⟨2, ![M, 64]⟩ (![] : Fin 0 → Fin 2))
    (hc1 : (⟨1, ![1]⟩ : Shape).BroadcastsInDim ⟨2, ![1, 1]⟩ (![1] : Fin 1 → Fin 2))
    (hc2 : (⟨2, ![1, 1]⟩ : Shape).BroadcastsInDim ⟨2, ![M, 1]⟩ (![0, 1] : Fin 2 → Fin 2))
    (h1 : (⟨1, ![64]⟩ : Shape).ShapeCasts ⟨2, ![1, 64]⟩) (h2 : (⟨1, ![1]⟩ : Shape).ShapeCasts ⟨2, ![1, 1]⟩)
    (z : FVec Ideal ⟨2, ![M, 128]⟩ .f32) (w1 : FVec Ideal ⟨2, ![128, 64]⟩ .f32) (b1 : FVec Ideal ⟨1, ![64]⟩ .f32)
    (w2 : FVec Ideal ⟨2, ![64, 1]⟩ .f32) (b2 : FVec Ideal ⟨1, ![1]⟩ .f32) :
    addf
        (Host.dotGeneral D2 none
          (maximumf
            (addf (Host.dotGeneral D1 none z w1)
              (broadcastInDim ⟨2, ![M, 64]⟩ ![0, 1] hb2 (broadcastInDim ⟨2, ![1, 64]⟩ ![1] hb1 b1)))
            (broadcastInDim ⟨2, ![M, 64]⟩ ![] hb0 (constant (F := Ideal) ⟨0, ![]⟩ .f32 0x00000000#32)))
          w2)
        (broadcastInDim ⟨2, ![M, 1]⟩ ![0, 1] hc2 (broadcastInDim ⟨2, ![1, 1]⟩ ![1] hc1 b2))
      = Cert.Sage.dec z w1 (shapeCast ⟨2, ![1, 64]⟩ b1 h1) w2 (shapeCast ⟨2, ![1, 1]⟩ b2 h2) := by
  funext i
  obtain ⟨p, u, rfl⟩ : ∃ (p : Fin M) (u : Fin 1), i = ix2 p u := ⟨i 0, i 1, eq_ix2 i⟩
  rw [addf_apply,
    Cert.LibPlainDot.dotGeneral_ix2 D2 none gr gs gl0 gl1 gr0 gr1 _ w2 p u,
    Cert.LibBiasRow.row_tile_apply b2 hc1 hc2 p u,
    Cert.Sage.dec_ix2]
  unfold Cert.Sage.decAt
  rw [shapeCast_a_1a_apply b2 h2 0 u]
  congr 1
  refine Finset.sum_congr rfl fun j _ => ?_
  congr 1
  rw [maximumf_apply, addf_apply,
    Cert.LibPlainDot.dotGeneral_ix2 D1 none hr hs hl0 hl1 hr0 hr1 z w1 p j,
    Cert.LibBiasRow.row_tile_apply b1 hb1 hb2 p j,
    Cert.LibBroadcastIn.scalar_apply hb0 _ (ix2 p j), constant_apply, Ideal.ofBits_zero_f32]
  unfold Cert.Sage.hidAt Cert.Sage.denseAt
  rw [shapeCast_a_1a_apply b1 h1 0 j]

/-! ## The eight stages -/

theorem stage_v39 (x1 x2 x3 : (⟨S200000, .i32⟩ : BufTy).Contents (Elt Ideal)) (x9 : (⟨S200000x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (h : S128.ShapeCasts S1x128) :
    val_main_v39 (F := Ideal) x1 x2 x3 x9 x10 x11 x12
      = Cert.Sage.sage (M := 200000) (val_main_v32 (F := Ideal) x1 x2 x3 x9) (val_main_v13 (F := Ideal) x1 x9) x10 (shapeCast S1x128 x11 h) x12 := by
  unfold val_main_v39 val_main_v38 val_main_v36 val_main_v33 val_main_v37 val_main_v35 val_main_v34 val_main_call0_v0 val_main_call0_cst
  generalize val_main_v32 (F := Ideal) x1 x2 x3 x9 = agg
  generalize val_main_v13 (F := Ideal) x1 x9 = x
  exact ref_sage dot_S200000x128_S128x128_S200000x128_1_0_0_1_n_n rfl rfl lhs_main_v33_0 lhs_main_v33_1 rhs_main_v33_0 rhs_main_v33_1
    bcast_S128_S1x128_1 bcast_S1x128_S200000x128_0_1 bcast_S_S200000x128 h agg x x10 x12 x11

theorem stage_v65 (x0 : (⟨S500000, .i32⟩ : BufTy).Contents (Elt Ideal)) (x1 : (⟨S200000, .i32⟩ : BufTy).Contents (Elt Ideal)) (x4 x5 : (⟨S1000000, .i32⟩ : BufTy).Contents (Elt Ideal)) (x8 : (⟨S500000x128, .f32⟩ : BufTy).Contents (Elt Ideal)) (x9 : (⟨S200000x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (h : S128.ShapeCasts S1x128) :
    val_main_v65 (F := Ideal) x0 x1 x4 x5 x8 x9 x13 x14 x15
      = Cert.Sage.sage (M := 500000) (val_main_v58 (F := Ideal) x1 x4 x5 x9) (val_main_v6 (F := Ideal) x0 x8) x13 (shapeCast S1x128 x14 h) x15 := by
  unfold val_main_v65 val_main_v64 val_main_v62 val_main_v59 val_main_v63 val_main_v61 val_main_v60 val_main_call1_v0 val_main_call1_cst
  generalize val_main_v58 (F := Ideal) x1 x4 x5 x9 = agg
  generalize val_main_v6 (F := Ideal) x0 x8 = x
  exact ref_sage dot_S500000x128_S128x128_S500000x128_1_0_0_1_n_n rfl rfl lhs_main_v59_0 lhs_main_v59_1 rhs_main_v59_0 rhs_main_v59_1
    bcast_S128_S1x128_1 bcast_S1x128_S500000x128_0_1 bcast_S_S500000x128 h agg x x13 x15 x14

theorem stage_v91 (x0 : (⟨S500000, .i32⟩ : BufTy).Contents (Elt Ideal)) (x1 x2 x3 : (⟨S200000, .i32⟩ : BufTy).Contents (Elt Ideal)) (x4 x5 : (⟨S1000000, .i32⟩ : BufTy).Contents (Elt Ideal)) (x8 : (⟨S500000x128, .f32⟩ : BufTy).Contents (Elt Ideal)) (x9 : (⟨S200000x128, .f32⟩ : BufTy).Contents (Elt Ideal)) (x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 x16 : (⟨S128x128, .f32⟩ : BufTy).Contents (Elt Ideal)) (x17 : (⟨S128, .f32⟩ : BufTy).Contents (Elt Ideal)) (x18 : (⟨S128x128, .f32⟩ : BufTy).Contents (Elt Ideal)) (h : S128.ShapeCasts S1x128) :
    val_main_v91 (F := Ideal) x0 x1 x2 x3 x4 x5 x8 x9 x10 x11 x12 x13 x14 x15 x16 x17 x18
      = Cert.Sage.sage (M := 500000) (val_main_v84 (F := Ideal) x1 x2 x3 x4 x5 x9 x10 x11 x12) (val_main_v65 (F := Ideal) x0 x1 x4 x5 x8 x9 x13 x14 x15) x16 (shapeCast S1x128 x17 h) x18 := by
  unfold val_main_v91 val_main_v90 val_main_v88 val_main_v85 val_main_v89 val_main_v87 val_main_v86 val_main_call2_v0 val_main_call2_cst
  generalize val_main_v84 (F := Ideal) x1 x2 x3 x4 x5 x9 x10 x11 x12 = agg
  generalize val_main_v65 (F := Ideal) x0 x1 x4 x5 x8 x9 x13 x14 x15 = x
  exact ref_sage dot_S500000x128_S128x128_S500000x128_1_0_0_1_n_n rfl rfl lhs_main_v85_0 lhs_main_v85_1 rhs_main_v85_0 rhs_main_v85_1
    bcast_S128_S1x128_1 bcast_S1x128_S500000x128_0_1 bcast_S_S500000x128 h agg x x16 x18 x17

theorem stage_v95 (x0 : (⟨S500000, .i32⟩ : BufTy).Contents (Elt Ideal)) (x1 x2 x3 : (⟨S200000, .i32⟩ : BufTy).Contents (Elt Ideal)) (x4 x5 : (⟨S1000000, .i32⟩ : BufTy).Contents (Elt Ideal)) (x8 : (⟨S500000x128, .f32⟩ : BufTy).Contents (Elt Ideal)) (x9 : (⟨S200000x128, .f32⟩ : BufTy).Contents (Elt Ideal)) (x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128x64, .f32⟩ : BufTy).Contents (Elt Ideal)) (x20 : (⟨S64, .f32⟩ : BufTy).Contents (Elt Ideal)) (h : S64.ShapeCasts S1x64) :
    val_main_v95 (F := Ideal) x0 x1 x2 x3 x4 x5 x8 x9 x10 x11 x12 x13 x14 x15 x16 x17 x18 x19 x20
      = Cert.Sage.lin (M := 500000) (val_main_v91 (F := Ideal) x0 x1 x2 x3 x4 x5 x8 x9 x10 x11 x12 x13 x14 x15 x16 x17 x18) x19 (shapeCast S1x64 x20 h) := by
  unfold val_main_v95 val_main_v92 val_main_v94 val_main_v93
  generalize val_main_v91 (F := Ideal) x0 x1 x2 x3 x4 x5 x8 x9 x10 x11 x12 x13 x14 x15 x16 x17 x18 = x
  exact ref_lin dot_S500000x128_S128x64_S500000x64_1_0_0_1_n_n rfl rfl lhs_main_v92_0 lhs_main_v92_1 rhs_main_v92_0 rhs_main_v92_1
    bcast_S64_S1x64_1 bcast_S1x64_S500000x64_0_1 h x x19 x20

theorem stage_v121 (x1 x2 x3 : (⟨S200000, .i32⟩ : BufTy).Contents (Elt Ideal)) (x9 : (⟨S200000x128, .f32⟩ : BufTy).Contents (Elt Ideal)) (x21 : (⟨S128x128, .f32⟩ : BufTy).Contents (Elt Ideal)) (x22 : (⟨S128, .f32⟩ : BufTy).Contents (Elt Ideal)) (x23 : (⟨S128x128, .f32⟩ : BufTy).Contents (Elt Ideal)) (h : S128.ShapeCasts S1x128) :
    val_main_v121 (F := Ideal) x1 x2 x3 x9 x21 x22 x23
      = Cert.Sage.sage (M := 200000) (val_main_v114 (F := Ideal) x1 x2 x3 x9) (val_main_v13 (F := Ideal) x1 x9) x21 (shapeCast S1x128 x22 h) x23 := by
  unfold val_main_v121 val_main_v120 val_main_v118 val_main_v115 val_main_v119 val_main_v117 val_main_v116 val_main_call3_v0 val_main_call3_cst
  generalize val_main_v114 (F := Ideal) x1 x2 x3 x9 = agg
  generalize val_main_v13 (F := Ideal) x1 x9 = x
  exact ref_sage dot_S200000x128_S128x128_S200000x128_1_0_0_1_n_n rfl rfl lhs_main_v115_0 lhs_main_v115_1 rhs_main_v115_0 rhs_main_v115_1
    bcast_S128_S1x128_1 bcast_S1x128_S200000x128_0_1 bcast_S_S200000x128 h agg x x21 x23 x22

theorem stage_v147 (x1 x2 x3 : (⟨S200000, .i32⟩ : BufTy).Contents (Elt Ideal)) (x9 : (⟨S200000x128, .f32⟩ : BufTy).Contents (Elt Ideal)) (x21 : (⟨S128x128, .f32⟩ : BufTy).Contents (Elt Ideal)) (x22 : (⟨S128, .f32⟩ : BufTy).Contents (Elt Ideal)) (x23 x24 : (⟨S128x128, .f32⟩ : BufTy).Contents (Elt Ideal)) (x25 : (⟨S128, .f32⟩ : BufTy).Contents (Elt Ideal)) (x26 : (⟨S128x128, .f32⟩ : BufTy).Contents (Elt Ideal)) (h : S128.ShapeCasts S1x128) :
    val_main_v147 (F := Ideal) x1 x2 x3 x9 x21 x22 x23 x24 x25 x26
      = Cert.Sage.sage (M := 200000) (val_main_v140 (F := Ideal) x1 x2 x3 x9 x21 x22 x23) (val_main_v121 (F := Ideal) x1 x2 x3 x9 x21 x22 x23) x24 (shapeCast S1x128 x25 h) x26 := by
  unfold val_main_v147 val_main_v146 val_main_v144 val_main_v141 val_main_v145 val_main_v143 val_main_v142 val_main_call4_v0 val_main_call4_cst
  generalize val_main_v140 (F := Ideal) x1 x2 x3 x9 x21 x22 x23 = agg
  generalize val_main_v121 (F := Ideal) x1 x2 x3 x9 x21 x22 x23 = x
  exact ref_sage dot_S200000x128_S128x128_S200000x128_1_0_0_1_n_n rfl rfl lhs_main_v141_0 lhs_main_v141_1 rhs_main_v141_0 rhs_main_v141_1
    bcast_S128_S1x128_1 bcast_S1x128_S200000x128_0_1 bcast_S_S200000x128 h agg x x24 x26 x25

theorem stage_v151 (x1 x2 x3 : (⟨S200000, .i32⟩ : BufTy).Contents (Elt Ideal)) (x9 : (⟨S200000x128, .f32⟩ : BufTy).Contents (Elt Ideal)) (x21 : (⟨S128x128, .f32⟩ : BufTy).Contents (Elt Ideal)) (x22 : (⟨S128, .f32⟩ : BufTy).Contents (Elt Ideal)) (x23 x24 : (⟨S128x128, .f32⟩ : BufTy).Contents (Elt Ideal)) (x25 : (⟨S128, .f32⟩ : BufTy).Contents (Elt Ideal)) (x26 : (⟨S128x128, .f32⟩ : BufTy).Contents (Elt Ideal)) (x27 : (⟨S128x64, .f32⟩ : BufTy).Contents (Elt Ideal)) (x28 : (⟨S64, .f32⟩ : BufTy).Contents (Elt Ideal)) (h : S64.ShapeCasts S1x64) :
    val_main_v151 (F := Ideal) x1 x2 x3 x9 x21 x22 x23 x24 x25 x26 x27 x28
      = Cert.Sage.lin (M := 200000) (val_main_v147 (F := Ideal) x1 x2 x3 x9 x21 x22 x23 x24 x25 x26) x27 (shapeCast S1x64 x28 h) := by
  unfold val_main_v151 val_main_v148 val_main_v150 val_main_v149
  generalize val_main_v147 (F := Ideal) x1 x2 x3 x9 x21 x22 x23 x24 x25 x26 = x
  exact ref_lin dot_S200000x128_S128x64_S200000x64_1_0_0_1_n_n rfl rfl lhs_main_v148_0 lhs_main_v148_1 rhs_main_v148_0 rhs_main_v148_1
    bcast_S64_S1x64_1 bcast_S1x64_S200000x64_0_1 h x x27 x28

theorem stage_v175 (x0 : (⟨S500000, .i32⟩ : BufTy).Contents (Elt Ideal)) (x1 x2 x3 : (⟨S200000, .i32⟩ : BufTy).Contents (Elt Ideal)) (x4 x5 : (⟨S1000000, .i32⟩ : BufTy).Contents (Elt Ideal)) (x6 x7 : (⟨S500000, .i32⟩ : BufTy).Contents (Elt Ideal)) (x8 : (⟨S500000x128, .f32⟩ : BufTy).Contents (Elt Ideal)) (x9 : (⟨S200000x128, .f32⟩ : BufTy).Contents (Elt Ideal)) (x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128x64, .f32⟩ : BufTy).Contents (Elt Ideal)) (x20 : (⟨S64, .f32⟩ : BufTy).Contents (Elt Ideal)) (x21 : (⟨S128x128, .f32⟩ : BufTy).Contents (Elt Ideal)) (x22 : (⟨S128, .f32⟩ : BufTy).Contents (Elt Ideal)) (x23 x24 : (⟨S128x128, .f32⟩ : BufTy).Contents (Elt Ideal)) (x25 : (⟨S128, .f32⟩ : BufTy).Contents (Elt Ideal)) (x26 : (⟨S128x128, .f32⟩ : BufTy).Contents (Elt Ideal)) (x27 : (⟨S128x64, .f32⟩ : BufTy).Contents (Elt Ideal)) (x28 : (⟨S64, .f32⟩ : BufTy).Contents (Elt Ideal)) (x29 : (⟨S128x64, .f32⟩ : BufTy).Contents (Elt Ideal)) (x30 : (⟨S64, .f32⟩ : BufTy).Contents (Elt Ideal)) (x31 : (⟨S64x1, .f32⟩ : BufTy).Contents (Elt Ideal)) (x32 : (⟨S1, .f32⟩ : BufTy).Contents (Elt Ideal)) (h1 : S64.ShapeCasts S1x64) (h2 : S1.ShapeCasts S1x1) :
    val_main_v175 (F := Ideal) x0 x1 x2 x3 x4 x5 x6 x7 x8 x9 x10 x11 x12 x13 x14 x15 x16 x17 x18 x19 x20 x21 x22 x23 x24 x25 x26 x27 x28 x29 x30 x31 x32
      = Cert.Sage.dec (M := 500000) (val_main_v166 (F := Ideal) x0 x1 x2 x3 x4 x5 x6 x7 x8 x9 x10 x11 x12 x13 x14 x15 x16 x17 x18 x19 x20 x21 x22 x23 x24 x25 x26 x27 x28) x29 (shapeCast S1x64 x30 h1) x31 (shapeCast S1x1 x32 h2) := by
  unfold val_main_v175 val_main_v172 val_main_v171 val_main_v170 val_main_v167 val_main_v169 val_main_v168 val_main_call5_v0 val_main_call5_cst val_main_v174 val_main_v173
  generalize val_main_v166 (F := Ideal) x0 x1 x2 x3 x4 x5 x6 x7 x8 x9 x10 x11 x12 x13 x14 x15 x16 x17 x18 x19 x20 x21 x22 x23 x24 x25 x26 x27 x28 = z
  exact ref_dec dot_S500000x128_S128x64_S500000x64_1_0_0_1_n_n rfl rfl lhs_main_v167_0 lhs_main_v167_1 rhs_main_v167_0 rhs_main_v167_1
    dot_S500000x64_S64x1_S500000x1_1_0_0_1_n_n rfl rfl lhs_main_v172_0 lhs_main_v172_1 rhs_main_v172_0 rhs_main_v172_1
    bcast_S64_S1x64_1 bcast_S1x64_S500000x64_0_1 bcast_S_S500000x64 bcast_S1_S1x1_1 bcast_S1x1_S500000x1_0_1 h1 h2 z x29 x30 x31 x32

end Cert.Sage.Ref

end
-- ==== Proof.Chain.lean ====
/-
  The idealized kernel program's result is the reference's function of the argument arrays.

  Region by region, in program order: a region's output array is the specification's dense stage of the
  region's inputs (the blocks the grid points write back tile the array, and each block is the body's
  payload of the input blocks); the inputs are the reference's stage functions of the argument arrays
  (the boundary fold walked back); and the reference's own dense stage is the same specification of the
  same operands, the bias added before instead of after the second product.  So each region's output is the
  reference's stage, which is what the next regions' inputs need.  After the last region the host reads the
  decoder's one column as a vector, in both programs.
-/
import proofs.«153538_j79937931313419_1_alg».proof.Proof.Walk
import proofs.«153538_j79937931313419_1_alg».proof.Proof.Regions
import proofs.«153538_j79937931313419_1_alg».proof.Proof.RefStages

set_option maxRecDepth 16384

noncomputable section

namespace Cert.Sage.Chain

open Idealize.ShloMosaic Idealize.ShloMosaic.TcCoe Idealize.SL.Sem Idealize.ShloMosaic.StableHlo
open Cert.KernelIdeal Cert.KernelIdeal.Gen
open Cert.ReferenceIdeal.Read (val_main_v6 val_main_v13 val_main_v32 val_main_v39 val_main_v58 val_main_v65 val_main_v84
  val_main_v91 val_main_v95 val_main_v114 val_main_v121 val_main_v140 val_main_v147 val_main_v151 val_main_v166
  val_main_v175 val_main_v176)
open Cert.Sage.Walk Cert.Sage.Regions Cert.Sage.Ref

variable (m : (ℓ : Loc nD τ sig) → Buf (Elt Ideal) ℓ) (ρ : Dev nD → PrngReg) (c : Dev nD)

/-- Region 0's rows: the taxon nodes after the sample encoder's first layer. -/
theorem O0 : W2 m ρ c (no_index (Proc.devRef .tc main_v34)) = val_main_v39 (F := Ideal) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12)) := by
  refine (W2_arr m ρ c 5).trans ?_
  rw [region0_value (V1 m ρ) c, in0_agg m ρ c, in0_x m ρ c, in0_wl m ρ c, in0_b m ρ c, in0_wr m ρ c]
  exact (stage_v39 _ _ _ _ _ _ _ _).symm

/-- Region 1's rows: the sample nodes after their first layer. -/
theorem O1 : W4 m ρ c (no_index (Proc.devRef .tc main_v55)) = val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15)) := by
  refine (W4_arr m ρ c 5).trans ?_
  rw [region1_value (V3 m ρ) c, in1_agg m ρ c, in1_x m ρ c, in1_wl m ρ c, in1_b m ρ c, in1_wr m ρ c]
  exact (stage_v65 _ _ _ _ _ _ _ _ _ _).symm

/-- Region 2's rows: the sample nodes after their second layer. -/
theorem O2 : W6 m ρ c (no_index (Proc.devRef .tc main_v76)) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 5).trans ?_
  rw [region2_value (V5 m ρ) c, in2_agg m ρ c (O0 m ρ c), in2_x m ρ c (O1 m ρ c), in2_wl m ρ c, in2_b m ρ c, in2_wr m ρ c]
  exact (stage_v91 _ _ _ _ _ _ _ _ _ _ _ _ _ _ _ _ _ _).symm

/-- Region 3's rows: the sample head. -/
theorem O3 : W8 m ρ c (no_index (Proc.devRef .tc main_v78)) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W8_arr m ρ c 3).trans ?_
  rw [region3_value (V7 m ρ) c, in3_x m ρ c (O2 m ρ c), in3_w m ρ c, in3_b m ρ c]
  exact (stage_v95 _ _ _ _ _ _ _ _ _ _ _ _ _ _ _ _ _ _ _ _).symm

/-- Region 4's rows: the taxon encoder's first layer. -/
theorem O4 : W10 m ρ c (no_index (Proc.devRef .tc main_v99)) = val_main_v121 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) := by
  refine (W10_arr m ρ c 5).trans ?_
  rw [region4_value (V9 m ρ) c, in4_agg m ρ c, in4_x m ρ c, in4_wl m ρ c, in4_b m ρ c, in4_wr m ρ c]
  exact (stage_v121 _ _ _ _ _ _ _ _).symm

/-- Region 5's rows: the taxon encoder's second layer. -/
theorem O5 : W12 m ρ c (no_index (Proc.devRef .tc main_v120)) = val_main_v147 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  refine (W12_arr m ρ c 5).trans ?_
  rw [region5_value (V11 m ρ) c, in5_agg m ρ c (O4 m ρ c), in5_x m ρ c (O4 m ρ c), in5_wl m ρ c, in5_b m ρ c, in5_wr m ρ c]
  exact (stage_v147 _ _ _ _ _ _ _ _ _ _ _).symm

/-- Region 6's rows: the taxon head. -/
theorem O6 : W14 m ρ c (no_index (Proc.devRef .tc main_v122)) = val_main_v151 (F := Ideal) (m ((c : Thread nD τ).loc main_arg1)) (m ((c : Thread nD τ).loc main_arg2)) (m ((c : Thread nD τ).loc main_arg3)) (m ((c : Thread nD τ).loc main_arg9)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  refine (W14_arr m ρ c 3).trans ?_
  rw [region6_value (V13 m ρ) c, in6_x m ρ c (O5 m ρ c), in6_w m ρ c, in6_b m ρ c]
  exact (stage_v151 _ _ _ _ _ _ _ _ _ _ _ _ _).symm

/-- Region 7's column: the edge decoder. -/
theorem O7 : W16 m ρ c (no_index (Proc.devRef .tc main_v140)) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) := by
  refine (W16_arr m ρ c 5).trans ?_
  rw [region7_value (V15 m ρ) c, in7_z m ρ c (O3 m ρ c) (O6 m ρ c), in7_w1 m ρ c, in7_b1 m ρ c, in7_w2 m ρ c, in7_b2 m ρ c]
  exact (stage_v175 _ _ _ _ _ _ _ _ _ _ _ _ _ _ _ _ _ _ _ _ _ _ _ _ _ _ _ _ _ _ _ _ _ _ _).symm

/-- The kernel program's result buffer ends at the reference's function of the argument arrays. -/
theorem result : W17 m ρ c (Proc.devRef .tc main_v141) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) :=
  result_of m ρ c (O7 m ρ c)

end Cert.Sage.Chain

end
-- ==== Proof.lean ====
/-
  The claim: the tiled kernel program and its plain reference compute the same edge scores.

  Both programs embed the nodes of a two-type graph, run three mean-aggregation layers towards the sample
  nodes and two among the taxon nodes, map each side through a linear head, and score every labelled edge by
  a two-layer decoder on the joined head rows.  The aggregation — gather the neighbours' rows, add them per
  destination, divide by the clamped in-degree — is the same host computation in both.  The kernel program
  runs each dense stage (two 128-wide products, a bias row, a clamp at zero; the heads; the decoder) as a
  region tiled over 5000 rows with operands narrowed on the way into the products.  On extended reals the
  narrowing is the identity, a tiled product is the product, and the stages differ only in whether the bias
  is added before or after the second product, which is immaterial for a commutative, associative addition
  — at infinite entries too, so the precondition on finite inputs is never used.

  The frames of the two kernel programs are the generated ones; the reference's frame is its generated run
  with the result dropped.  The kernel program's idealization rewrote nothing, so there is nothing to
  preserve.  For the value claim the kernel program's run keeps the final contents of every unscoped buffer
  (the result buffer among them, and the arguments as launched), the boundary fold read back gives the result
  as the reference's function of the argument arrays, and the reference's generated run ends at that same
  function of its own arguments, which agree.
-/
import proofs.«153538_j79937931313419_1_alg».proof.Defs
import proofs.«153538_j79937931313419_1_alg».proof.Proof.Gen.Kernel
import proofs.«153538_j79937931313419_1_alg».proof.Proof.Gen.Kernel.Skeleton
import proofs.«153538_j79937931313419_1_alg».proof.Proof.Gen.Kernel.Launch
import proofs.«153538_j79937931313419_1_alg».proof.Proof.Gen.Kernel.Points
import proofs.«153538_j79937931313419_1_alg».proof.Proof.Gen.Kernel.Frame
import proofs.«153538_j79937931313419_1_alg».proof.Proof.Gen.KernelIdeal
import proofs.«153538_j79937931313419_1_alg».proof.Proof.Gen.KernelIdeal.Skeleton
import proofs.«153538_j79937931313419_1_alg».proof.Proof.Gen.KernelIdeal.Launch
import proofs.«153538_j79937931313419_1_alg».proof.Proof.Gen.KernelIdeal.Points
import proofs.«153538_j79937931313419_1_alg».proof.Proof.Gen.KernelIdeal.Frame
import proofs.«153538_j79937931313419_1_alg».proof.Proof.Gen.ReferenceIdeal
import proofs.«153538_j79937931313419_1_alg».proof.Proof.Gen.Pre_finite_inputs
import proofs.«153538_j79937931313419_1_alg».proof.Proof.Gen.ReferenceIdeal.Run
import proofs.«153538_j79937931313419_1_alg».proof.Proof.Gen.ReferenceIdeal.Read
import proofs.«153538_j79937931313419_1_alg».proof.Proof.KernelRun
import proofs.«153538_j79937931313419_1_alg».proof.Proof.Chain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- The kernel program's run: the result buffer ends at the last value of the boundary fold, the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v141) = W17 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run _ _ _).mono (fun r h c =>
    ⟨h c _ Cert.Sage.KRun.result_mem,
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c),
     (h c _ (mem_uc main_arg16 (by decide))).trans (W17_main_arg16 m ρ c),
     (h c _ (mem_uc main_arg17 (by decide))).trans (W17_main_arg17 m ρ c),
     (h c _ (mem_uc main_arg18 (by decide))).trans (W17_main_arg18 m ρ c),
     (h c _ (mem_uc main_arg19 (by decide))).trans (W17_main_arg19 m ρ c),
     (h c _ (mem_uc main_arg20 (by decide))).trans (W17_main_arg20 m ρ c),
     (h c _ (mem_uc main_arg21 (by decide))).trans (W17_main_arg21 m ρ c),
     (h c _ (mem_uc main_arg22 (by decide))).trans (W17_main_arg22 m ρ c),
     (h c _ (mem_uc main_arg23 (by decide))).trans (W17_main_arg23 m ρ c),
     (h c _ (mem_uc main_arg24 (by decide))).trans (W17_main_arg24 m ρ c),
     (h c _ (mem_uc main_arg25 (by decide))).trans (W17_main_arg25 m ρ c),
     (h c _ (mem_uc main_arg26 (by decide))).trans (W17_main_arg26 m ρ c),
     (h c _ (mem_uc main_arg27 (by decide))).trans (W17_main_arg27 m ρ c),
     (h c _ (mem_uc main_arg28 (by decide))).trans (W17_main_arg28 m ρ c),
     (h c _ (mem_uc main_arg29 (by decide))).trans (W17_main_arg29 m ρ c),
     (h c _ (mem_uc main_arg30 (by decide))).trans (W17_main_arg30 m ρ c),
     (h c _ (mem_uc main_arg31 (by decide))).trans (W17_main_arg31 m ρ c),
     (h c _ (mem_uc main_arg32 (by decide))).trans (W17_main_arg32 m ρ c)⟩)
    (Cert.Sage.KRun.run_all (F := Ideal) m ρ)

theorem algebraic : Cert.algebraic_KernelIdeal_ReferenceIdeal := by
  intro m ρ m' ρ' _ hagree
  refine ⟨fun c => Cert.KernelIdeal.Gen.W17 m ρ c (Proc.devRef .tc Cert.KernelIdeal.main_v141), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32⟩ := hagree c
  rw [Cert.ReferenceIdeal.Read.val_main_v176_eq, h0, h1, h2, h3, h4, h5, h6, h7, h8, h9, h10, h11, h12, h13, h14, h15, h16, h17, h18, h19, h20, h21, h22, h23, h24, h25, h26, h27, h28, h29, h30, h31, h32]
  exact (Cert.Sage.Chain.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
